-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x3 : Shape := ⟨2, ![8192, 3]⟩
abbrev S8192x2 : Shape := ⟨2, ![8192, 2]⟩
abbrev S8192 : Shape := ⟨1, ![8192]⟩
abbrev S8192x8192 : Shape := ⟨2, ![8192, 8192]⟩
abbrev S_ : Shape := ⟨0, ![]⟩

class Facts : Prop where
  bcast_S_S8192x3 : S_.BroadcastsInDim S8192x3 (![] : Fin 0 → Fin S8192x3.rank)
  reducesTo_S8192x3_S_d0_1 : S8192x3.ReducesTo [0, 1] S_
  h_S_ : 0 < S_.numel
  bcast_S_S8192 : S_.BroadcastsInDim S8192 (![] : Fin 0 → Fin S8192.rank)
  reducesTo_S8192_S_d0 : S8192.ReducesTo [0] S_
  bcast_S_S8192x8192 : S_.BroadcastsInDim S8192x8192 (![] : Fin 0 → Fin S8192x8192.rank)
  reducesTo_S8192x8192_S_d0_1 : S8192x8192.ReducesTo [0, 1] S_

variable [Facts]

def fn_part1 {F : FTy → Type} [FloatOps F] (main_arg5 : FVec F S8192x8192 .f32) (main_v13 : IVec S_ 1) (main_v16 : IVec S8192x8192 1) : IVec S_ 1 :=
  let main_c_5 : IVec S_ 1 := constantI S_ 1 1#1
  let main_v17 : IVec S_ 1 := (fun x v => Host.reduce IntOp.andi x v reducesTo_S8192x8192_S_d0_1 h_S_) main_v16 main_c_5
  let main_v18 : IVec S_ 1 := andi main_v13 main_v17
  let main_v19 : FVec F S8192x8192 .f32 := Host.absf main_arg5
  let main_cst_6 : FVec F S_ .f32 := constant S_ .f32 0x7F800000#32
  let main_v20 : FVec F S8192x8192 .f32 := broadcastInDim S8192x8192 ![] bcast_S_S8192x8192 main_cst_6
  let main_v21 : IVec S8192x8192 1 := cmpf .olt main_v19 main_v20
  let main_c_7 : IVec S_ 1 := constantI S_ 1 1#1
  let main_v22 : IVec S_ 1 := (fun x v => Host.reduce IntOp.andi x v reducesTo_S8192x8192_S_d0_1 h_S_) main_v21 main_c_7
  let main_v23 : IVec S_ 1 := andi main_v18 main_v22
  main_v23

def fn {F : FTy → Type} [FloatOps F] (main_arg0 : FVec F S8192x3 .f32) (main_arg1 : IVec S8192x2 32) (main_arg2 : FVec F S8192 .f32) (main_arg3 : FVec F S8192 .f32) (main_arg4 : FVec F S8192x8192 .f32) (main_arg5 : FVec F S8192x8192 .f32) : IVec S_ 1 :=
  let main_v0 : FVec F S8192x3 .f32 := Host.absf main_arg0
  let main_cst : FVec F S_ .f32 := constant S_ .f32 0x7F800000#32
  let main_v1 : FVec F S8192x3 .f32 := broadcastInDim S8192x3 ![] bcast_S_S8192x3 main_cst
  let main_v2 : IVec S8192x3 1 := cmpf .olt main_v0 main_v1
  let main_c : IVec S_ 1 := constantI S_ 1 1#1
  let main_v3 : IVec S_ 1 := (fun x v => Host.reduce IntOp.andi x v reducesTo_S8192x3_S_d0_1 h_S_) main_v2 main_c
  let main_v4 : FVec F S8192 .f32 := Host.absf main_arg2
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  let main_v9 : FVec F S8192 .f32 := Host.absf main_arg3
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S8192x8192 .f32 := Host.absf main_arg4
  let main_cst_4 : FVec F S_ .f32 := constant S_ .f32 0x7F800000#32
  let main_v15 : FVec F S8192x8192 .f32 := broadcastInDim S8192x8192 ![] bcast_S_S8192x8192 main_cst_4
  let main_v16 : IVec S8192x8192 1 := cmpf .olt main_v14 main_v15
  fn_part1 (F := F) main_arg5 main_v13 main_v16
-- ==== Kernel.lean ====
abbrev S8192x3 : Shape := ⟨2, ![8192, 3]⟩
abbrev S8192x2 : Shape := ⟨2, ![8192, 2]⟩
abbrev S8192 : Shape := ⟨1, ![8192]⟩
abbrev S8192x8192 : Shape := ⟨2, ![8192, 8192]⟩
abbrev S8192x1 : Shape := ⟨2, ![8192, 1]⟩
abbrev S_ : Shape := ⟨0, ![]⟩
abbrev S1x1 : Shape := ⟨2, ![1, 1]⟩
abbrev S1024x3 : Shape := ⟨2, ![1024, 3]⟩
abbrev S1024x1024 : Shape := ⟨2, ![1024, 1024]⟩
abbrev S3x1024 : Shape := ⟨2, ![3, 1024]⟩
abbrev S1024 : Shape := ⟨1, ![1024]⟩
abbrev S1024x1 : Shape := ⟨2, ![1024, 1]⟩
abbrev S1x1024 : Shape := ⟨2, ![1, 1024]⟩
abbrev S1x1024x1024 : Shape := ⟨3, ![1, 1024, 1024]⟩
abbrev S1 : Shape := ⟨1, ![1]⟩
abbrev S1x1x1 : Shape := ⟨3, ![1, 1, 1]⟩

abbrev nBuf : Space → Nat
  | .hbm => 41
  | .vmem => 9
  | .smem => 0
  | _ => 0

abbrev bufTy : (tb : Table) → Fin (tcTables nBuf tb) → BufTy
  | .hbm, ⟨0, _⟩ => ⟨S8192x3, .f32⟩
  | .hbm, ⟨1, _⟩ => ⟨S8192x2, .i32⟩
  | .hbm, ⟨2, _⟩ => ⟨S8192, .f32⟩
  | .hbm, ⟨3, _⟩ => ⟨S8192, .f32⟩
  | .hbm, ⟨4, _⟩ => ⟨S8192x8192, .f32⟩
  | .hbm, ⟨5, _⟩ => ⟨S8192x8192, .f32⟩
  | .hbm, ⟨6, _⟩ => ⟨S8192x1, .i32⟩
  | .hbm, ⟨7, _⟩ => ⟨S8192, .i32⟩
  | .hbm, ⟨8, _⟩ => ⟨S_, .i32⟩
  | .hbm, ⟨9, _⟩ => ⟨S8192, .i32⟩
  | .hbm, ⟨10, _⟩ => ⟨S8192, .i1⟩
  | .hbm, ⟨11, _⟩ => ⟨S_, .i32⟩
  | .hbm, ⟨12, _⟩ => ⟨S8192, .i32⟩
  | .hbm, ⟨13, _⟩ => ⟨S8192, .i32⟩
  | .hbm, ⟨14, _⟩ => ⟨S8192, .i32⟩
  | .hbm, ⟨15, _⟩ => ⟨S8192x1, .i32⟩
  | .hbm, ⟨16, _⟩ => ⟨S8192x3, .f32⟩
  | .hbm, ⟨17, _⟩ => ⟨S8192x1, .i32⟩
  | .hbm, ⟨18, _⟩ => ⟨S8192, .i32⟩
  | .hbm, ⟨19, _⟩ => ⟨S_, .i32⟩
  | .hbm, ⟨20, _⟩ => ⟨S8192, .i32⟩
  | .hbm, ⟨21, _⟩ => ⟨S8192, .i1⟩
  | .hbm, ⟨22, _⟩ => ⟨S_, .i32⟩
  | .hbm, ⟨23, _⟩ => ⟨S8192, .i32⟩
  | .hbm, ⟨24, _⟩ => ⟨S8192, .i32⟩
  | .hbm, ⟨25, _⟩ => ⟨S8192, .i32⟩
  | .hbm, ⟨26, _⟩ => ⟨S8192x1, .i32⟩
  | .hbm, ⟨27, _⟩ => ⟨S8192x3, .f32⟩
  | .hbm, ⟨28, _⟩ => ⟨S8192x3, .f32⟩
  | .hbm, ⟨29, _⟩ => ⟨S8192x3, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S8192, .f32⟩
  | .hbm, ⟨34, _⟩ => ⟨S8192, .f32⟩
  | .hbm, ⟨35, _⟩ => ⟨S8192, .f32⟩
  | .hbm, ⟨36, _⟩ => ⟨S_, .f32⟩
  | .hbm, ⟨37, _⟩ => ⟨S_, .f32⟩
  | .hbm, ⟨38, _⟩ => ⟨S1x1, .f32⟩
  | .hbm, ⟨39, _⟩ => ⟨S_, .f32⟩
  | .hbm, ⟨40, _⟩ => ⟨S_, .f32⟩
  | .local _ .vmem, ⟨0, _⟩ => ⟨S1024x3, .f32⟩
  | .local _ .vmem, ⟨1, _⟩ => ⟨S1024x3, .f32⟩
  | .local _ .vmem, ⟨2, _⟩ => ⟨S1024x3, .f32⟩
  | .local _ .vmem, ⟨3, _⟩ => ⟨S1024x3, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1, .f32⟩
  | _, _ => ⟨S8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

class Facts₀ : Prop where
  slices_S8192x2_S8192x1_0_0 : S8192x2.Slices ![0, 0] S8192x1
  shapeCasts_S8192x1_S8192 : S8192x1.ShapeCasts S8192
  bcast_S_S8192 : S_.BroadcastsInDim S8192 (![] : Fin 0 → Fin S8192.rank)
  bcast_S8192_S8192x1_0 : S8192.BroadcastsInDim S8192x1 (![0] : Fin 1 → Fin S8192x1.rank)
  slices_S8192x2_S8192x1_0_1 : S8192x2.Slices ![0, 1] S8192x1
  reducesTo_S8192x3_S8192_d1 : S8192x3.ReducesTo [1] S8192
  h_S_ : 0 < S_.numel
  reducesTo_S8192_S_d0 : S8192.ReducesTo [0] S_
  inb_S1x1_S1x1_0_0 : ∀ a, (![0, 0] : Fin 2 → Nat) a + S1x1.size a ≤ S1x1.size a
  h_S1x1 : 0 < S1x1.numel
  inb_S1024x3_S1024x3_0_0 : ∀ a, (![0, 0] : Fin 2 → Nat) a + S1024x3.size a ≤ S1024x3.size a
  h_S1024x3 : 0 < S1024x3.numel
  transposes_S1024x3_p1_0_S3x1024 : S1024x3.Transposes [1, 0] S3x1024
  reduces_S1024x3_S1024 : S1024x3.Reduces [1] S1024
  shapeCasts_S1024_S1024x1 : S1024.ShapeCasts S1024x1
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  iota_S1024x1024_d0_w32 : S1024x1024.Iotas .tc 32 [0]
  iota_S1024x1024_d1_w32 : S1024x1024.Iotas .tc 32 [1]
  natLt_1_32 : 1 < 32
  inb_S1024x1024_S1024x1024_0_0 : ∀ a, (![0, 0] : Fin 2 → Nat) a + S1024x1024.size a ≤ S1024x1024.size a
  h_S1024x1024 : 0 < S1024x1024.numel
  shapeCasts_S1024x1024_S1x1024x1024 : S1024x1024.ShapeCasts S1x1024x1024
  reduces_S1x1024x1024_S1 : S1x1024x1024.Reduces [1, 2] S1
  shapeCasts_S1_S1x1x1 : S1.ShapeCasts S1x1x1
  inpos_S1x1x1_p0_0_0 : ∀ a, (![0, 0, 0] : Fin 3 → Nat) a < S1x1x1.size a
  shapeCasts_S1x1_S1x1 : S1x1.ShapeCasts S1x1
  shapeCasts_S1x1_S_ : S1x1.ShapeCasts S_
  gather_S8192x3_S8192x1_S8192x3_1_0_n_n_0_1_13_wf : GatherDims.WF S8192x3 S8192x1 S8192x3 [1] [0] [] [0] [] 1 ![1, 3]
  dot_S1024x3_S3x1024_S1024x1024_1_0_0_1_n_n_wf : DotDims.WF S1024x3 S3x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x3.size a ≤ S8192x3.size a
  hwx0_0 : ∀ i : grid0.Coords, EltTy.bits .f32 = 32 ∨ (Rect.block (s := S8192x3) S1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x3.size a ≤ S8192x3.size a
  hwx0_1 : ∀ i : grid0.Coords, EltTy.bits .f32 = 32 ∨ (Rect.block (s := S8192x3) S1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x8192.size a
  hwx0_3 : ∀ i : grid0.Coords, EltTy.bits .f32 = 32 ∨ (Rect.block (s := S8192x8192) S1024x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def gather_S8192x3_S8192x1_S8192x3_1_0_n_n_0_1_13 : GatherDims S8192x3 S8192x1 S8192x3 where
  offsetDims := [1]
  collapsedSliceDims := [0]
  operandBatchingDims := []
  startIndicesBatchingDims := []
  startIndexMap := [0]
  indexVectorDim := 1
  sliceSizes := ![1, 3]
  wf := gather_S8192x3_S8192x1_S8192x3_1_0_n_n_0_1_13_wf
def dot_S1024x3_S3x1024_S1024x1024_1_0_0_1_n_n : DotDims S1024x3 S3x1024 S1024x1024 where
  lhsContracting := [1]
  rhsContracting := [0]
  lhsNonContracting := [0]
  rhsNonContracting := [1]
  lhsBatch := []
  rhsBatch := []
  wf := dot_S1024x3_S3x1024_S1024x1024_1_0_0_1_n_n_wf

abbrev win0_0 : Pipeline.Window sig grid0 :=
  Pipeline.Window.ofSpec (Memref.whole main_arg0) S1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x3 : Shape := ⟨2, ![8192, 3]⟩
abbrev S8192x2 : Shape := ⟨2, ![8192, 2]⟩
abbrev S8192 : Shape := ⟨1, ![8192]⟩
abbrev S8192x8192 : Shape := ⟨2, ![8192, 8192]⟩
abbrev S8192x1 : Shape := ⟨2, ![8192, 1]⟩
abbrev S_ : Shape := ⟨0, ![]⟩
abbrev S1x8192 : Shape := ⟨2, ![1, 8192]⟩
abbrev S3x8192 : Shape := ⟨2, ![3, 8192]⟩

abbrev nBuf : Space → Nat
  | .hbm => 100
  | .vmem => 0
  | .smem => 0
  | _ => 0

abbrev bufTy : (tb : Table) → Fin (tcTables nBuf tb) → BufTy
  | .hbm, ⟨0, _⟩ => ⟨S8192x3, .f32⟩
  | .hbm, ⟨1, _⟩ => ⟨S8192x2, .i32⟩
  | .hbm, ⟨2, _⟩ => ⟨S8192, .f32⟩
  | .hbm, ⟨3, _⟩ => ⟨S8192, .f32⟩
  | .hbm, ⟨4, _⟩ => ⟨S8192x8192, .f32⟩
  | .hbm, ⟨5, _⟩ => ⟨S8192x8192, .f32⟩
  | .hbm, ⟨6, _⟩ => ⟨S8192x1, .i32⟩
  | .hbm, ⟨7, _⟩ => ⟨S8192, .i32⟩
  | .hbm, ⟨8, _⟩ => ⟨S_, .i32⟩
  | .hbm, ⟨9, _⟩ => ⟨S8192, .i32⟩
  | .hbm, ⟨10, _⟩ => ⟨S8192, .i1⟩
  | .hbm, ⟨11, _⟩ => ⟨S_, .i32⟩
  | .hbm, ⟨12, _⟩ => ⟨S8192, .i32⟩
  | .hbm, ⟨13, _⟩ => ⟨S8192, .i32⟩
  | .hbm, ⟨14, _⟩ => ⟨S8192, .i32⟩
  | .hbm, ⟨15, _⟩ => ⟨S8192x1, .i32⟩
  | .hbm, ⟨16, _⟩ => ⟨S8192x3, .f32⟩
  | .hbm, ⟨17, _⟩ => ⟨S8192x1, .i32⟩
  | .hbm, ⟨18, _⟩ => ⟨S8192, .i32⟩
  | .hbm, ⟨19, _⟩ => ⟨S_, .i32⟩
  | .hbm, ⟨20, _⟩ => ⟨S8192, .i32⟩
  | .hbm, ⟨21, _⟩ => ⟨S8192, .i1⟩
  | .hbm, ⟨22, _⟩ => ⟨S_, .i32⟩
  | .hbm, ⟨23, _⟩ => ⟨S8192, .i32⟩
  | .hbm, ⟨24, _⟩ => ⟨S8192, .i32⟩
  | .hbm, ⟨25, _⟩ => ⟨S8192, .i32⟩
  | .hbm, ⟨26, _⟩ => ⟨S8192x1, .i32⟩
  | .hbm, ⟨27, _⟩ => ⟨S8192x3, .f32⟩
  | .hbm, ⟨28, _⟩ => ⟨S8192x3, .f32⟩
  | .hbm, ⟨29, _⟩ => ⟨S8192x3, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S8192, .f32⟩
  | .hbm, ⟨34, _⟩ => ⟨S8192, .f32⟩
  | .hbm, ⟨35, _⟩ => ⟨S8192, .f32⟩
  | .hbm, ⟨36, _⟩ => ⟨S_, .f32⟩
  | .hbm, ⟨37, _⟩ => ⟨S_, .f32⟩
  | .hbm, ⟨38, _⟩ => ⟨S8192x3, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S1x8192, .f32⟩
  | .hbm, ⟨43, _⟩ => ⟨S8192x8192, .f32⟩
  | .hbm, ⟨44, _⟩ => ⟨S8192x8192, .f32⟩
  | .hbm, ⟨45, _⟩ => ⟨S8192x8192, .f32⟩
  | .hbm, ⟨46, _⟩ => ⟨S3x8192, .f32⟩
  | .hbm, ⟨47, _⟩ => ⟨S8192x8192, .f32⟩
  | .hbm, ⟨48, _⟩ => ⟨S_, .f32⟩
  | .hbm, ⟨49, _⟩ => ⟨S8192x8192, .f32⟩
  | .hbm, ⟨50, _⟩ => ⟨S8192x8192, .f32⟩
  | .hbm, ⟨51, _⟩ => ⟨S8192x8192, .f32⟩
  | .hbm, ⟨52, _⟩ => ⟨S_, .f32⟩
  | .hbm, ⟨53, _⟩ => ⟨S8192x8192, .f32⟩
  | .hbm, ⟨54, _⟩ => ⟨S8192x8192, .f32⟩
  | .hbm, ⟨55, _⟩ => ⟨S_, .f32⟩
  | .hbm, ⟨56, _⟩ => ⟨S8192x8192, .f32⟩
  | .hbm, ⟨57, _⟩ => ⟨S8192x8192, .i1⟩
  | .hbm, ⟨58, _⟩ => ⟨S_, .f32⟩
  | .hbm, ⟨59, _⟩ => ⟨S8192x8192, .f32⟩
  | .hbm, ⟨60, _⟩ => ⟨S8192x8192, .i1⟩
  | .hbm, ⟨61, _⟩ => ⟨S_, .f32⟩
  | .hbm, ⟨62, _⟩ => ⟨S_, .f32⟩
  | .hbm, ⟨63, _⟩ => ⟨S8192x8192, .f32⟩
  | .hbm, ⟨64, _⟩ => ⟨S8192x8192, .f32⟩
  | .hbm, ⟨65, _⟩ => ⟨S8192x8192, .f32⟩
  | .hbm, ⟨66, _⟩ => ⟨S_, .f32⟩
  | .hbm, ⟨67, _⟩ => ⟨S_, .f32⟩
  | .hbm, ⟨68, _⟩ => ⟨S8192x8192, .f32⟩
  | .hbm, ⟨69, _⟩ => ⟨S8192x8192, .f32⟩
  | .hbm, ⟨70, _⟩ => ⟨S8192x8192, .i32⟩
  | .hbm, ⟨71, _⟩ => ⟨S8192x8192, .i32⟩
  | .hbm, ⟨72, _⟩ => ⟨S_, .i32⟩
  | .hbm, ⟨73, _⟩ => ⟨S8192x8192, .i32⟩
  | .hbm, ⟨74, _⟩ => ⟨S8192x8192, .i32⟩
  | .hbm, ⟨75, _⟩ => ⟨S8192x8192, .i1⟩
  | .hbm, ⟨76, _⟩ => ⟨S8192x8192, .f32⟩
  | .hbm, ⟨77, _⟩ => ⟨S8192x8192, .f32⟩
  | .hbm, ⟨78, _⟩ => ⟨S8192x8192, .f32⟩
  | .hbm, ⟨79, _⟩ => ⟨S8192x8192, .f32⟩
  | .hbm, ⟨80, _⟩ => ⟨S8192x8192, .f32⟩
  | .hbm, ⟨81, _⟩ => ⟨S8192x8192, .f32⟩
  | .hbm, ⟨82, _⟩ => ⟨S8192x8192, .f32⟩
  | .hbm, ⟨83, _⟩ => ⟨S_, .f32⟩
  | .hbm, ⟨84, _⟩ => ⟨S8192x8192, .f32⟩
  | .hbm, ⟨85, _⟩ => ⟨S8192x8192, .f32⟩
  | .hbm, ⟨86, _⟩ => ⟨S8192x8192, .f32⟩
  | .hbm, ⟨87, _⟩ => ⟨S8192x8192, .f32⟩
  | .hbm, ⟨88, _⟩ => ⟨S8192x8192, .i32⟩
  | .hbm, ⟨89, _⟩ => ⟨S_, .i32⟩
  | .hbm, ⟨90, _⟩ => ⟨S8192x8192, .i32⟩
  | .hbm, ⟨91, _⟩ => ⟨S8192x8192, .i32⟩
  | .hbm, ⟨92, _⟩ => ⟨S8192x8192, .i32⟩
  | .hbm, ⟨93, _⟩ => ⟨S8192x8192, .i1⟩
  | .hbm, ⟨94, _⟩ => ⟨S_, .f32⟩
  | .hbm, ⟨95, _⟩ => ⟨S8192x8192, .f32⟩
  | .hbm, ⟨96, _⟩ => ⟨S8192x8192, .f32⟩
  | .hbm, ⟨97, _⟩ => ⟨S_, .f32⟩
  | .hbm, ⟨98, _⟩ => ⟨S_, .f32⟩
  | .hbm, ⟨99, _⟩ => ⟨S_, .f32⟩
  | _, _ => ⟨S8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_cst_9 : Ref sig .tc := ⟨.hbm, 61, rfl⟩
abbrev main_call0_v0 : Ref sig .tc := ⟨.hbm, 62, rfl⟩
abbrev main_call0_v1 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_call1_v0 : Ref sig .tc := ⟨.hbm, 67, rfl⟩
abbrev main_call1_v1 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_c_11 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_call2_v0 : Ref sig .tc := ⟨.hbm, 88, rfl⟩
abbrev main_call2_c : Ref sig .tc := ⟨.hbm, 89, rfl⟩
abbrev main_call2_v1 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_call2_cst : Ref sig .tc := ⟨.hbm, 94, rfl⟩
abbrev main_call2_v5 : Ref sig .tc := ⟨.hbm, 95, rfl⟩
abbrev main_v63 : Ref sig .tc := ⟨.hbm, 96, rfl⟩
abbrev main_cst_13 : Ref sig .tc := ⟨.hbm, 97, rfl⟩
abbrev main_v64 : Ref sig .tc := ⟨.hbm, 98, rfl⟩
abbrev main_v65 : Ref sig .tc := ⟨.hbm, 99, rfl⟩

abbrev nD : Nat := 1
abbrev τ : Topo := Topo.v7x

variable {F : FTy → Type} [FloatOps F]

class Facts₀ : Prop where
  slices_S8192x2_S8192x1_0_0 : S8192x2.Slices ![0, 0] S8192x1
  shapeCasts_S8192x1_S8192 : S8192x1.ShapeCasts S8192
  bcast_S_S8192 : S_.BroadcastsInDim S8192 (![] : Fin 0 → Fin S8192.rank)
  bcast_S8192_S8192x1_0 : S8192.BroadcastsInDim S8192x1 (![0] : Fin 1 → Fin S8192x1.rank)
  slices_S8192x2_S8192x1_0_1 : S8192x2.Slices ![0, 1] S8192x1
  reducesTo_S8192x3_S8192_d1 : S8192x3.ReducesTo [1] S8192
  h_S_ : 0 < S_.numel
  reducesTo_S8192_S_d0 : S8192.ReducesTo [0] S_
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x3_S3x8192_1_0 : S8192x3.Transposes [1, 0] S3x8192
  bcast_S_S8192x8192 : S_.BroadcastsInDim S8192x8192 (![] : Fin 0 → Fin S8192x8192.rank)
  reducesTo_S8192x8192_S_d0_1 : S8192x8192.ReducesTo [0, 1] S_
  gather_S8192x3_S8192x1_S8192x3_1_0_n_n_0_1_13_wf : GatherDims.WF S8192x3 S8192x1 S8192x3 [1] [0] [] [0] [] 1 ![1, 3]
  dot_S8192x3_S3x8192_S8192x8192_1_0_0_1_n_n_wf : DotDims.WF S8192x3 S3x8192 S8192x8192 [1] [0] [0] [1] [] []

variable [Facts₀]

def gather_S8192x3_S8192x1_S8192x3_1_0_n_n_0_1_13 : GatherDims S8192x3 S8192x1 S8192x3 where
  offsetDims := [1]
  collapsedSliceDims := [0]
  operandBatchingDims := []
  startIndicesBatchingDims := []
  startIndexMap := [0]
  indexVectorDim := 1
  sliceSizes := ![1, 3]
  wf := gather_S8192x3_S8192x1_S8192x3_1_0_n_n_0_1_13_wf
def dot_S8192x3_S3x8192_S8192x8192_1_0_0_1_n_n : DotDims S8192x3 S3x8192 S8192x8192 where
  lhsContracting := [1]
  rhsContracting := [0]
  lhsNonContracting := [0]
  rhsNonContracting := [1]
  lhsBatch := []
  rhsBatch := []
  wf := dot_S8192x3_S3x8192_S8192x8192_1_0_0_1_n_n_wf

class Facts : Prop extends Facts₀ where

variable [Facts]
-- ==== Proof.K.Data.lean ====
/-
  What the pipeline's staging buffers hold around the kernel body, point by point.

  The region is entered after the host lines that compute the bond term; `V` names the buffers' contents there.
  Each of the four input windows holds, at every grid point, its block of the array behind it. The output window is a
  single [1,1] accumulator resident over the whole grid: after the body at the first point it holds the reset value
  plus that tile's share, and after every later point what the point before left plus the tile's share.
-/
import proofs.«179323_j33148557590854_1_alg».proof.Proof.Gen.Kernel.Launch
import proofs.«179323_j33148557590854_1_alg».proof.Proof.Gen.Kernel.Skeleton
import proofs.«179323_j33148557590854_1_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- The core's buffer contents when the region is entered: after the host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The accumulator after the body at point `t`, given what it held when the tile's share is added: the body's one
    store, over the point's four input blocks. -/
def stepOut (c : Dev nD) (t : Fin cfg0.N) (prev : Vec F S1x1 .f32) : Vec F S1x1 .f32 :=
  k0_pay1 (k0_pay3 (iblk m c 0 t) (iblk m c 1 t)) (Scalar.muli (BitVec.ofNat 32 ((grid0.coords t) 1).val) 1024#32)
    (k0_pay4 (grid0.coords t)) (iota .tc S1024x1024 32 [1] iota_S1024x1024_d1_w32) (iblk m c 2 t) (iblk m c 3 t) prev

/-- The accumulator after the body at each point: reset then added to at the first, carried and added to afterwards. -/
def outsAt (c : Dev nD) : (n : ℕ) → n < cfg0.N → Vec F S1x1 .f32
  | 0, hn => stepOut m c ⟨0, hn⟩ (k0_pay2 (F := F))
  | n + 1, hn => stepOut m c ⟨n + 1, hn⟩ (outsAt c n (Nat.lt_of_succ_lt hn))

theorem outsAt_zero (c : Dev nD) (hn : 0 < cfg0.N) : outsAt m c 0 hn = stepOut m c ⟨0, hn⟩ (k0_pay2 (F := F)) := rfl
theorem outsAt_succ (c : Dev nD) (n : ℕ) (hn : n + 1 < cfg0.N) :
    outsAt m c (n + 1) hn = stepOut m c ⟨n + 1, hn⟩ (outsAt m c n (Nat.lt_of_succ_lt hn)) := rfl

/-- The proof data of the one pipeline on core `c`: the arrays as the region finds them; after the body each input's
    buffer at its block and the accumulator at `outsAt`; the two windows that read the coordinate array hold it at the
    two halves of the full share, every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outsAt m c t.val t.isLt
  Φ _ := Pipeline.ΦA spec0 c
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outsAt m c t.val t.isLt := by dsimp only [dats]

end Cert.Kernel.Hand

end
-- ==== Proof.K.Launch.lean ====
/-
  The launch of the one pipeline, by the launch theorem's fields.

  Two of the five windows read the same coordinate array, so the arrays behind the windows are four buffers, not five:
  at the region's entry each is held whole, and the coordinate array's full share is split into its two halves, one per
  reader; the accumulator's array and the two pair tables go whole to their windows. @main runs the host lines of the
  bond term, then the region, then two more host lines (a reshape of the accumulator and the final sum); those last lines
  touch only the accumulator's array and buffers that bypass the region, so they run holding just these, and the windows'
  other arrays pass by them untouched. The run ends with every window's array at what the pipeline library computes
  from the proof data and every bypassing buffer at the last lines' results.
-/
import proofs.«179323_j33148557590854_1_alg».proof.Proof.K.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines of the bond term, the region, and two more host lines: it reduces to the region continued by
    the later lines, entered at the contents the earlier lines leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The contents the lines after the region start from: the accumulator's array at what the region wrote back, every
    other buffer as the region found it. -/
def W0 (c : Dev nD) : Valuation τ sig (Elt F) :=
  Function.update (V0 m c) (Proc.devRef .tc main_v26) ((dats m 0 c).arrAt 4 cfg0.N)

/-- The contents after those lines. -/
def tailV (c : Dev nD) (b : Ref sig .tc) : Buf (Elt F) ((c.tc : Thread nD τ).loc b) :=
  StableHlo.after (List.flatten [hostOps1]) (W0 m c) (Proc.devRef .tc b)

/-- The distinct buffers behind the five windows' arrays. -/
theorem arrRefs_eq : Finset.univ.image (Pipeline.arrRef spec0) = ([main_arg0, main_arg4, main_arg5, main_v26] : List (Ref sig .tc)).toFinset := by decide

theorem bigSep_arrRefs {M : Type} [URA M] (Φ : Ref sig .tc → sProp M) :
    bigSep (Finset.univ.image (Pipeline.arrRef spec0)) Φ = iprop(Φ main_arg0 ∗ Φ main_arg4 ∗ Φ main_arg5 ∗ Φ main_v26) :=
  bigSep_eq_bigSepL_of_eq [main_arg0, main_arg4, main_arg5, main_v26] arrRefs_eq (by decide) Φ

/-- A window's array, a whole buffer, held at the window's share: the points-to of the buffer behind it. -/
theorem arr_piece (c : Dev nD) (w : Fin 5) (q : PosShare TreeShare) (hq : (dats m 0 c).share w = q)
    (f : Buf (Elt F) ((cfg0.win w).arr.view.loc (c.tc : Thread nD τ))) :
    ((cfg0.win w).arr.view.loc (c.tc : Thread nD τ) ↦[(cfg0.win w).arr.view.set]{(dats m 0 c).share w} f : sProp 𝕄)
      = (((c.tc : Thread nD τ).loc (Pipeline.arrRef spec0 w)) ↦{q} f) := by
  rw [(arr_whole0 w).set_eq_univ, hq]

/-- At the region's entry the buffers behind the arrays, each whole, are dealt among the windows: the coordinate array's
    two readers take the two halves of its full share, every other window its array whole. -/
theorem split_arrays (c : Dev nD) :
    (Pipeline.arrBufs spec0 c (V m c) : sProp 𝕄) ⊢ (dats m 0 c).arrays ((dats m 0 c).arrAt · 0) := by
  unfold Pipeline.arrBufs Dat.arrays
  rw [bigSep_arrRefs, bigSep_W0,
    arr_piece m c 0 fullShare.left rfl, arr_piece m c 1 fullShare.right rfl, arr_piece m c 2 fullShare rfl,
    arr_piece m c 3 fullShare rfl, arr_piece m c 4 fullShare rfl]
  iintro ⟨H0, H4, H5, H26⟩
  ihave H0' := (pointsTo_share (PosShare.mem_left_op_right fullShare)).1 $$ H0
  icases H0' with ⟨H0l, H0r⟩
  isplitl [H0l]; · iexact H0l
  isplitl [H0r]; · iexact H0r
  isplitl [H4]; · iexact H4
  isplitl [H5]; · iexact H5
  iexact H26

/-- The accumulator's array is none of the buffers that bypass the region. -/
theorem v26_not_rest : main_v26 ∉ Pipeline.restRefsP sig Pipeline.Prefetch.none spec0 := fun h =>
  (Finset.mem_sdiff.mp (Finset.mem_sdiff.mp h).1).2 (Finset.mem_image.mpr ⟨4, Finset.mem_univ _, rfl⟩)

/-- The buffers the lines after the region may touch: the accumulator's array and the buffers that bypass the region. -/
def tailSet : Finset (DevRef τ sig) :=
  (insert main_v26 (Pipeline.restRefsP sig Pipeline.Prefetch.none spec0)).map ⟨Proc.devRef (sig := sig) .tc, Proc.devRef_injective _⟩

/-- The accumulator's array as the pipeline hands it back. -/
def accPt (c : Dev nD) : sProp 𝕄 :=
  ((cfg0.win 4).arr.view.loc (c.tc : Thread nD τ) ↦[(cfg0.win 4).arr.view.set]{(dats m 0 c).share 4} (dats m 0 c).arrAt 4 cfg0.N)

theorem W0_v26 (c : Dev nD) : W0 m c (Proc.devRef .tc main_v26) = (dats m 0 c).arrAt 4 cfg0.N := by
  unfold W0; exact Function.update_self ..

theorem W0_rest (c : Dev nD) (b : Ref sig .tc) (hb : b ∈ Pipeline.restRefsP sig Pipeline.Prefetch.none spec0) :
    W0 m c (Proc.devRef .tc b) = V m c b := by
  unfold W0
  exact Function.update_of_ne (StableHlo.devRef_ne_of_ne (x := b) (y := main_v26) fun e => v26_not_rest (by rw [← e]; exact hb)) ..

theorem held_tail (c : Dev nD) (Wv : Valuation τ sig (Elt F)) (h26 : Wv (Proc.devRef .tc main_v26) = (dats m 0 c).arrAt 4 cfg0.N) :
    (StableHlo.held (c.tc : Thread nD τ) tailSet Wv : sProp 𝕄)
      = iprop(accPt m c ∗ Pipeline.unscopedRestP Pipeline.Prefetch.none spec0 c (fun b => Wv (Proc.devRef .tc b))) := by
  classical
  unfold StableHlo.held tailSet accPt Pipeline.unscopedRestP
  rw [bigSep_map, bigSep_insert v26_not_rest, arr_piece m c 4 fullShare rfl, ← h26]
  rfl

theorem v26_mem_tailSet : Proc.devRef (τ := τ) .tc main_v26 ∈ tailSet :=
  Finset.mem_map.mpr ⟨_, Finset.mem_insert_self _ _, rfl⟩

theorem mem_tailSet_rest (b : Ref sig .tc) (hs : b.isScoped = false) (ha : ∀ w, (spec0 w).arr.view.ref ≠ b) :
    Proc.devRef (τ := τ) .tc b ∈ tailSet := by
  unfold tailSet
  refine Finset.mem_map.mpr ⟨b, Finset.mem_insert_of_mem ?_, rfl⟩
  rw [Pipeline.restRefsP]
  exact Finset.mem_sdiff.mpr ⟨Pipeline.mem_restRefs_of b hs ha, fun h => by obtain ⟨k, -, -⟩ := Finset.mem_image.mp h; exact k.elim0⟩

/-- The two lines after the region read the accumulator's array and the bond term and write two fresh scalars. -/
theorem hostOps1_within : ∀ ops ∈ ([hostOps1] : List (List (HloOp τ sig (Elt F)))), ∀ op ∈ ops, op.bufs ⊆ tailSet := by
  intro ops hops op hop
  simp only [List.mem_cons, List.mem_nil_iff, or_false] at hops
  subst hops
  simp only [hostOps1, List.mem_cons, List.mem_nil_iff, or_false] at hop
  rcases hop with rfl | rfl
  · rw [StableHlo.reshape_bufs]
    intro b hb
    simp only [Finset.mem_insert, Finset.mem_singleton] at hb
    rcases hb with rfl | rfl
    · exact v26_mem_tailSet
    · exact mem_tailSet_rest main_v27 (by decide) (by decide)
  · rw [StableHlo.binary_bufs]
    intro b hb
    simp only [Finset.mem_insert, Finset.mem_singleton] at hb
    rcases hb with rfl | rfl | rfl
    · exact mem_tailSet_rest main_v25 (by decide) (by decide)
    · exact mem_tailSet_rest main_v27 (by decide) (by decide)
    · exact mem_tailSet_rest main_v28 (by decide) (by decide)

theorem hostOps1_allocs : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

theorem hostOps1_keeps : ∀ op ∈ List.flatten [(hostOps1 : List (HloOp τ sig (Elt F)))], Proc.devRef .tc main_v26 ∉ op.writes := by
  intro op hop
  simp only [List.flatten_cons, List.flatten_nil, List.append_nil, hostOps1, List.mem_cons, List.mem_nil_iff, or_false] at hop
  rcases hop with rfl | rfl
  · simp only [StableHlo.reshape_writes, Finset.mem_singleton]; exact StableHlo.devRef_ne_of_ne (by decide)
  · simp only [StableHlo.binary_writes, Finset.mem_singleton]; exact StableHlo.devRef_ne_of_ne (by decide)

set_option backward.isDefEq.respectTransparency.types false in
/-- The lines after the region, run from the accumulator's array as the pipeline hands it back and the bypassing buffers
    as the region found them, to the same array and the bypassing buffers at the lines' results. -/
theorem tail_core (c : Dev nD) (Q' : PUnit → sProp 𝕄) :
    iprop((iprop(accPt m c ∗ Pipeline.unscopedRestP Pipeline.Prefetch.none spec0 c (tailV m c)) -∗ Q' ⟨⟩)
        ∗ boundary (c.tc : Thread nD τ) ∗ accPt m c ∗ Pipeline.unscopedRestP Pipeline.Prefetch.none spec0 c (V m c))
      ⊢ wp frame (wpE (Pipeline.defs (fun q => (cfgs q).toPCfg (Val := Elt F)) defs₀) (Variants.lift Variants.none) (c.tc : Thread nD τ) none) Set.univ
          (Pipeline.chain ([hostOps1].map StableHlo.seq)) Q' := by
  classical
  have hZ : (Pipeline.unscopedRestP Pipeline.Prefetch.none spec0 c (fun b => W0 m c (Proc.devRef .tc b)) : sProp 𝕄)
      = Pipeline.unscopedRestP Pipeline.Prefetch.none spec0 c (V m c) := by
    unfold Pipeline.unscopedRestP
    exact bigSep_congr fun b hb => by beta_reduce; rw [W0_rest m c b hb]
  have hW := held_tail m c (W0 m c) (W0_v26 m c)
  rw [hZ] at hW
  have hW' := held_tail m c (StableHlo.after (List.flatten [hostOps1]) (W0 m c))
    (by rw [StableHlo.after_of_forall_not_mem _ _ hostOps1_keeps, W0_v26])
  rw [← List.append_nil ([hostOps1].map StableHlo.seq), ← hW]
  iintro ⟨Hk, Hb⟩
  iapply (Pipeline.wp_seqs_then (fun q => (cfgs q).toPCfg (Val := Elt F)) defs₀ Variants.none c tailSet [] [hostOps1] hostOps1_within hostOps1_allocs (W0 m c)) $$ Hb
  iintro Hb
  rw [Pipeline.chain_nil, wp_pure, hW']
  imodintro
  iapply Hk
  icases Hb with ⟨-, H⟩
  iexact H

theorem tail_run (c : Dev nD) (Q' : PUnit → sProp 𝕄) :
    iprop((iprop((dats m 0 c).arrays ((dats m 0 c).arrAt · cfg0.N) ∗ Pipeline.unscopedRestP Pipeline.Prefetch.none spec0 c (tailV m c)) -∗ Q' ⟨⟩)
        ∗ boundary (c.tc : Thread nD τ) ∗ (dats m 0 c).arrays ((dats m 0 c).arrAt · cfg0.N)
        ∗ Pipeline.unscopedRestP Pipeline.Prefetch.none spec0 c (V m c))
      ⊢ wp frame (wpE (Pipeline.defs (fun q => (cfgs q).toPCfg (Val := Elt F)) defs₀) (Variants.lift Variants.none) (c.tc : Thread nD τ) none) Set.univ
          (Pipeline.chain ([hostOps1].map StableHlo.seq)) Q' := by
  have hcore := tail_core m c Q'
  unfold accPt at hcore
  unfold Dat.arrays
  rw [bigSep_W0]
  beta_reduce
  iintro ⟨Hk, Hb, ⟨A0, A1, A2, A3, A4⟩, HZ⟩
  iapply hcore
  isplitl [Hk A0 A1 A2 A3]
  · iintro ⟨A4, HZ'⟩
    iapply Hk
    isplitr [HZ']
    · isplitl [A0]; · iexact A0
      isplitl [A1]; · iexact A1
      isplitl [A2]; · iexact A2
      isplitl [A3]; · iexact A3
      iexact A4
    · iexact HZ'
  · isplitl [Hb]; · iexact Hb
    isplitl [A4]; · iexact A4
    iexact HZ

theorem run_main (hbody : ∀ c, BodyObligation (dats (F := F) m 0 c) (defs₀ (F := F)) Variants.none () Set.univ) :
    θ_run defs (onTc (τ := τ) (main (F := F))) (s₀ m ρ) (fun r => ∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b) = tailV m c b) := by
  classical
  exact Pipeline.θ_run_region_pf_tail (fun q => (cfgs q).toPCfg (Val := Elt F)) (fun q => (cfgs q).toPCfg_adm) (dats m) () cellOf_inj 0
    winFacts₀0 (Pipeline.OwnSemFacts.none spec0) (Pipeline.PreFacts.none _) emb₁ defs₀ Variants.none m ρ main
    (fun _ => Pipeline.chain ([hostOps1].map StableHlo.seq)) (fun c => (hbody c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := split_arrays m)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (tailV m c))
    (hX := fun c => by
      iintro ⟨HU, -, -, -, Hp, -⟩; imodintro
      isplitl [Hp]; · iexists _; iexact Hp
      iexact HU)
    (hin := fun c => by
      show _ ⊢ Pipeline.ΦA spec0 c
      unfold Pipeline.ΦA; iintro ⟨Hp, Ht, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := tail_run m)
    (QY := fun c s => ∀ b ∈ Pipeline.restRefsP sig Pipeline.Prefetch.none spec0, s.mem ((c.tc : Thread nD τ).loc b) = tailV m c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (tailV m c) s')
      isplitl [HU] <;> iassumption)
    (hQ := fun s h c => ⟨(h c).1, fun b hb => (h c).2.2 b (by rw [Pipeline.restRefsP]; exact Finset.mem_sdiff.mpr ⟨hb, fun h => by obtain ⟨k, -, -⟩ := Finset.mem_image.mp h; exact k.elim0⟩)⟩)

end Cert.Kernel.Hand

end
-- ==== Proof.K.Final.lean ====
/-
  What the run leaves: the six argument arrays as launched, and the result at the bond term plus the accumulator.

  The host lines write only their own result buffers, never an argument; the input windows' arrays are never written by the
  pipeline; the accumulator's [1,1] array is written back once, after the last grid point, with what that point left; and
  the two lines after the region reshape that entry to a scalar and add it to the bond term.
-/
import proofs.«179323_j33148557590854_1_alg».proof.Proof.K.Launch
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The arguments are not written by the host lines -/

theorem V_main_arg0 (c : Dev nD) : V m c main_arg0 = m ((c.tc : Thread nD τ).loc main_arg0) := by
  show StableHlo.after (List.flatten [hostOps0]) (fun b => m (c, b)) (Proc.devRef .tc main_arg0) = _
  simp only [List.flatten_cons, List.flatten_nil, List.append_nil, hostOps0]
  after_results_simp <;> rfl
theorem V_main_arg1 (c : Dev nD) : V m c main_arg1 = m ((c.tc : Thread nD τ).loc main_arg1) := by
  show StableHlo.after (List.flatten [hostOps0]) (fun b => m (c, b)) (Proc.devRef .tc main_arg1) = _
  simp only [List.flatten_cons, List.flatten_nil, List.append_nil, hostOps0]
  after_results_simp <;> rfl
theorem V_main_arg2 (c : Dev nD) : V m c main_arg2 = m ((c.tc : Thread nD τ).loc main_arg2) := by
  show StableHlo.after (List.flatten [hostOps0]) (fun b => m (c, b)) (Proc.devRef .tc main_arg2) = _
  simp only [List.flatten_cons, List.flatten_nil, List.append_nil, hostOps0]
  after_results_simp <;> rfl
theorem V_main_arg3 (c : Dev nD) : V m c main_arg3 = m ((c.tc : Thread nD τ).loc main_arg3) := by
  show StableHlo.after (List.flatten [hostOps0]) (fun b => m (c, b)) (Proc.devRef .tc main_arg3) = _
  simp only [List.flatten_cons, List.flatten_nil, List.append_nil, hostOps0]
  after_results_simp <;> rfl
theorem V_main_arg4 (c : Dev nD) : V m c main_arg4 = m ((c.tc : Thread nD τ).loc main_arg4) := by
  show StableHlo.after (List.flatten [hostOps0]) (fun b => m (c, b)) (Proc.devRef .tc main_arg4) = _
  simp only [List.flatten_cons, List.flatten_nil, List.append_nil, hostOps0]
  after_results_simp <;> rfl
theorem V_main_arg5 (c : Dev nD) : V m c main_arg5 = m ((c.tc : Thread nD τ).loc main_arg5) := by
  show StableHlo.after (List.flatten [hostOps0]) (fun b => m (c, b)) (Proc.devRef .tc main_arg5) = _
  simp only [List.flatten_cons, List.flatten_nil, List.append_nil, hostOps0]
  after_results_simp <;> rfl

/-- A bypassing buffer the last two lines do not write ends as the region found it. -/
theorem tailV_keep (c : Dev nD) (b : Ref sig .tc) (h26 : b ≠ main_v26) (h27 : b ≠ main_v27) (h28 : b ≠ main_v28) :
    tailV m c b = V m c b := by
  unfold tailV
  rw [StableHlo.after_of_forall_not_mem _ _ fun op hop => ?_]
  · unfold W0; exact Function.update_of_ne (StableHlo.devRef_ne_of_ne h26) ..
  · simp only [List.flatten_cons, List.flatten_nil, List.append_nil, hostOps1, List.mem_cons, List.mem_nil_iff, or_false] at hop
    rcases hop with rfl | rfl
    · simp only [StableHlo.reshape_writes, Finset.mem_singleton]; exact StableHlo.devRef_ne_of_ne h27
    · simp only [StableHlo.binary_writes, Finset.mem_singleton]; exact StableHlo.devRef_ne_of_ne h28

/-- The program's result: the bond term plus the accumulator's one entry. -/
theorem tailV_result (c : Dev nD) :
    tailV m c main_v28 = addf (V m c main_v25) (shapeCast S_ ((dats m 0 c).arrAt 4 cfg0.N) shapeCasts_S1x1_S_) := by
  unfold tailV
  simp only [List.flatten_cons, List.flatten_nil, List.append_nil, hostOps1]
  after_results
  rw [W0_v26]
  unfold W0
  rw [Function.update_of_ne (StableHlo.devRef_ne_of_ne (by decide))]
  rfl

/-! ## The accumulator's array after the region -/

instance : Subsingleton S1x1.Idx :=
  ⟨fun a b => funext fun d => by
    match d with
    | ⟨0, _⟩ => exact Fin.ext (by have := (a ⟨0, by decide⟩).isLt; have := (b ⟨0, by decide⟩).isLt; simp at *; omega)
    | ⟨1, _⟩ => exact Fin.ext (by have := (a ⟨1, by decide⟩).isLt; have := (b ⟨1, by decide⟩).isLt; simp at *; omega)⟩

/-- The accumulator is written back once, after the last point: its array ends at what the last point left. -/
theorem acc_final (c : Dev nD) : (dats m 0 c).arrAt 4 cfg0.N = outsAt m c 63 (by decide) := by
  refine (dats m 0 c).arrAt_eq_of_cover 4 (outsAt m c 63 (by decide)) (fun t hf => ?_) (fun i => ?_)
  · have h63 : t.val = 63 := by
      have := (flush0_4 t).mp hf
      have hN : t.val < 64 := lt_of_lt_of_eq t.isLt N_0
      omega
    obtain rfl : t = ⟨63, by decide⟩ := Fin.ext h63
    funext y
    rw [View.read_apply]
    show (dats m 0 c).after 4 ⟨63, _⟩ y = _
    rw [after0_4]
    exact congrArg _ (Subsingleton.elim (α := S1x1.Idx) _ _)
  · refine ⟨⟨63, by decide⟩, (flush0_4 _).mpr (by decide), ?_⟩
    have h := ((cfg0.win 4).blk ⟨63, by decide⟩).view.emb_mem_set (fun d => ⟨0, by fin_cases d <;> decide⟩)
    exact (Subsingleton.elim (α := S1x1.Idx) _ i) ▸ h

/-! ## The run's two readings -/

/-- The frame: the run ends with the six argument arrays as launched. -/
theorem frame_run (hbody : ∀ c, BodyObligation (dats (F := F) m 0 c) (defs₀ (F := F)) Variants.none () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 0).trans (((dats m 0 c).arrAt_in 0 rfl _).trans (V_main_arg0 m c)),
     ((h c).2 main_arg1 (Pipeline.mem_restRefs_of main_arg1 (by decide) (by decide))).trans
        ((tailV_keep m c main_arg1 (by decide) (by decide) (by decide)).trans (V_main_arg1 m c)),
     ((h c).2 main_arg2 (Pipeline.mem_restRefs_of main_arg2 (by decide) (by decide))).trans
        ((tailV_keep m c main_arg2 (by decide) (by decide) (by decide)).trans (V_main_arg2 m c)),
     ((h c).2 main_arg3 (Pipeline.mem_restRefs_of main_arg3 (by decide) (by decide))).trans
        ((tailV_keep m c main_arg3 (by decide) (by decide) (by decide)).trans (V_main_arg3 m c)),
     ((h c).1 2).trans (((dats m 0 c).arrAt_in 2 rfl _).trans (V_main_arg4 m c)),
     ((h c).1 3).trans (((dats m 0 c).arrAt_in 3 rfl _).trans (V_main_arg5 m c))⟩)
    (run_main m ρ hbody)

/-- The value: the run ends with the result at the bond term plus what the last point left in the accumulator, and the
    six argument arrays as launched. -/
theorem value_run (hbody : ∀ c, BodyObligation (dats (F := F) m 0 c) (defs₀ (F := F)) Variants.none () Set.univ) :
    θ_run defs (onTc (τ := τ) (main (F := F))) ⟨m, fun _ => 0, ρ⟩ (fun r => ∀ c : Dev nD,
      r.2.mem ((c.tc : Thread nD τ).loc main_v28)
        = addf (V m c main_v25) (shapeCast S_ (outsAt m c 63 (by decide)) shapeCasts_S1x1_S_)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v28 (Pipeline.mem_restRefs_of main_v28 (by decide) (by decide))).trans
        ((tailV_result m c).trans (by rw [acc_final])),
     ((h c).1 0).trans (((dats m 0 c).arrAt_in 0 rfl _).trans (V_main_arg0 m c)),
     ((h c).2 main_arg1 (Pipeline.mem_restRefs_of main_arg1 (by decide) (by decide))).trans
        ((tailV_keep m c main_arg1 (by decide) (by decide) (by decide)).trans (V_main_arg1 m c)),
     ((h c).2 main_arg2 (Pipeline.mem_restRefs_of main_arg2 (by decide) (by decide))).trans
        ((tailV_keep m c main_arg2 (by decide) (by decide) (by decide)).trans (V_main_arg2 m c)),
     ((h c).2 main_arg3 (Pipeline.mem_restRefs_of main_arg3 (by decide) (by decide))).trans
        ((tailV_keep m c main_arg3 (by decide) (by decide) (by decide)).trans (V_main_arg3 m c)),
     ((h c).1 2).trans (((dats m 0 c).arrAt_in 2 rfl _).trans (V_main_arg4 m c)),
     ((h c).1 3).trans (((dats m 0 c).arrAt_in 3 rfl _).trans (V_main_arg5 m c))⟩)
    (run_main m ρ hbody)

end Cert.Kernel.Hand

end
-- ==== Proof.K.BodyRunA.lean ====
/-
  The kernel body at a point where the accumulator is reset (both grid coordinates zero), and what the body's two
  runs share.

  Every access of the body goes through the full-extent rectangle at offset zero of a whole staging buffer: a load
  through it reads the buffer's contents as they are, and a store through it leaves exactly the stored vector, whatever
  the buffer held. The body's one conditional resets the accumulator; its condition, a word computed from the two grid
  coordinates, holds exactly at the first of the 64 points.

  On whole staging buffers, the four inputs at their contents and the accumulator at anything, the body at such a point
  runs to the continuation with the inputs as they were and the accumulator at the tile's sum added to the reset value:
  the reset store covers the accumulator, so the load that follows reads the reset value, and the final store covers it
  again.
-/
import proofs.«179323_j33148557590854_1_alg».proof.Proof.K.Data
import Idealize.ShloMosaic.Lib.WholeRead

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Reading back through a whole memref: the full-extent rectangle at offset zero -/

/-- The full-extent unit rectangle at offset zero places every index at itself. -/
theorem unit_full_emb {s : Shape} (off : Fin s.rank → ℕ) (inb : ∀ a, off a + s.size a ≤ s.size a) (hoff : ∀ a, off a = 0)
    (y : s.Idx) : (Rect.unit off s.size inb).emb y = y := by
  funext a
  apply Fin.ext
  rw [Rect.emb_apply]
  simp only [Rect.off_unit, Rect.stride_unit, hoff a, Nat.zero_add, Nat.one_mul]

/-- A store of `w` through the full-extent rectangle reads back as `w`, whatever the buffer held and whatever was written before. -/
theorem read_writes_unit_full {Val : EltTy → Type} {κ : Kind} {sp : Space} {s : Shape} {e : EltTy} (v : View sig κ sp s e) (f : v.ty.Contents Val)
    (off : Fin s.rank → ℕ) (inb : ∀ a, off a + s.size a ≤ s.size a) (hoff : ∀ a, off a = 0) (w : s.Idx → Val e)
    (L : List (View.Piece Val s e)) :
    v.read Val (v.writes Val f (⟨Rect.unit off s.size inb, w⟩ :: L)) = w := by
  funext y
  have h := View.read_writes_cons_emb v f (Rect.unit off s.size inb) w L y
  rwa [unit_full_emb off inb hoff y] at h

/-- A load through the full-extent rectangle of a whole memref held at the contents that read `X` reads `X`. -/
theorem readAt_unit_full_unread {Val : EltTy → Type} {κ : Kind} {sp : Space} {s : Shape} {e : EltTy} {mr : Memref sig κ sp s e} (h : mr.IsWhole)
    (X : s.Idx → Val e) (off : Fin s.rank → ℕ) (inb : ∀ a, off a + s.size a ≤ s.size a) (hoff : ∀ a, off a = 0) :
    View.readAt Val mr.view (Rect.unit off s.size inb).toLoadRect (h.unread X) = X := by
  funext y
  exact (h.readAt_unread X _ y).trans (congrArg X (unit_full_emb off inb hoff y))

/-- A load through the full-extent rectangle after a store of `w` through it reads `w`. -/
theorem readCov_unit_full {Val : EltTy → Type} [∀ e, Nonempty (Val e)] {κ : Kind} {sp : Space} {s : Shape} {e : EltTy} (v : View sig κ sp s e)
    (off : Fin s.rank → ℕ) (inb : ∀ a, off a + s.size a ≤ s.size a) (hoff : ∀ a, off a = 0)
    (off' : Fin s.rank → ℕ) (inb' : ∀ a, off' a + s.size a ≤ s.size a) (hoff' : ∀ a, off' a = 0) (w : s.Idx → Val e)
    (L : List (View.Piece Val s e)) :
    v.readCov (⟨Rect.unit off s.size inb, w⟩ :: L) (Rect.unit off' s.size inb').toLoadRect = w := by
  unfold View.readCov
  funext y
  rw [View.readAt_apply]
  exact (congrArg _ (unit_full_emb off' inb' hoff' y)).trans (congrFun (read_writes_unit_full v _ off inb hoff w L) y)

/-! ## The body's branch condition -/

/-- The condition of the body's conditional (the accumulator's reset), from the grid coordinates: both are zero. -/
abbrev resetCond (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first point only: decided over the 64 points of the grid. -/
theorem resetCond_iff : ∀ t : Fin cfg0.N, resetCond (grid0.coords t) ↔ t.val % 64 = 0 :=
  (by decide +kernel : ∀ t : Fin grid0.N, resetCond (grid0.coords t) ↔ t.val % 64 = 0)

/-- What the body's one accumulating store writes at coordinates `i`, over the four input blocks and what the accumulator held. -/
abbrev tileSum (i : grid0.Coords) (x0 x1 : Vec F S1024x3 .f32) (x2 x3 : Vec F S1024x1024 .f32) (acc : Vec F S1x1 .f32) : Vec F S1x1 .f32 :=
  k0_pay1 (k0_pay3 x0 x1) (Scalar.muli (BitVec.ofNat 32 (i 1).val) 1024#32) (k0_pay4 i)
    (iota .tc S1024x1024 32 [1] iota_S1024x1024_d1_w32) x2 x3 acc

/-! ## The run where the reset is taken -/

set_option maxHeartbeats 1000000 in
/-- The body where the reset is taken: the accumulator, found at anything, is left at the tile's sum over the reset value. -/
theorem bodyRun_first (c : Dev nD) (i : grid0.Coords)
    (arg2 : Memref sig .tc .vmem S1024x3 .f32) (harg2 : arg2.IsWhole) (arg3 : Memref sig .tc .vmem S1024x3 .f32) (harg3 : arg3.IsWhole)
    (arg4 : Memref sig .tc .vmem S1024x1024 .f32) (harg4 : arg4.IsWhole) (arg5 : Memref sig .tc .vmem S1024x1024 .f32) (harg5 : arg5.IsWhole)
    (arg6 : Memref sig .tc .vmem S1x1 .f32) (harg6 : arg6.IsWhole) (hc : resetCond i)
    (x0 x1 : Vec F S1024x3 .f32) (x2 x3 : Vec F S1024x1024 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3
            ∗ owns (c : Thread nD τ) arg6 fullShare (tileSum i x0 x1 x2 x3 (k0_pay2 (F := F)))) -∗ K ⟨⟩))
      ⊢ wp frame (wpE (defs₀ (F := F)) Variants.none c none) E (cc0__lj_kernel i arg2 harg2 arg3 harg3 arg4 harg4 arg5 harg5 arg6 harg6) K := by
  simp only [cc0__lj_kernel_eq_skeleton]; unfold cc0__lj_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg2.eq_unread hf0; obtain rfl := harg3.eq_unread hf1; obtain rfl := harg4.eq_unread hf2
  obtain rfl := harg5.eq_unread hf3
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact H4
  ipureintro
  refine (read_writes_unit_full arg6.view _ _ _ (by decide) _ _).trans ?_
  have e0 := readAt_unit_full_unread harg2 x0 ![0, 0] inb_S1024x3_S1024x3_0_0 (by decide)
  have e1 := readAt_unit_full_unread harg3 x1 ![0, 0] inb_S1024x3_S1024x3_0_0 (by decide)
  have e2 := readAt_unit_full_unread harg4 x2 ![0, 0] inb_S1024x1024_S1024x1024_0_0 (by decide)
  have e3 := readAt_unit_full_unread harg5 x3 ![0, 0] inb_S1024x1024_S1024x1024_0_0 (by decide)
  have e4 := readCov_unit_full (Val := Elt F) arg6.view ![0, 0] inb_S1x1_S1x1_0_0 (by decide) ![0, 0] inb_S1x1_S1x1_0_0 (by decide) (k0_pay2 (F := F)) []
  sl_unfold_run_names
  dsimp only
  have key : ∀ (a0 a1 : Vec F S1024x3 .f32) (a2 a3 : Vec F S1024x1024 .f32) (a4 : Vec F S1x1 .f32), a0 = x0 → a1 = x1 → a2 = x2 → a3 = x3 →
      a4 = k0_pay2 (F := F) → tileSum i a0 a1 a2 a3 a4 = tileSum i x0 x1 x2 x3 (k0_pay2 (F := F)) := by
    intro a0 a1 a2 a3 a4 h0 h1 h2 h3 h4; subst h0 h1 h2 h3 h4; rfl
  exact key _ _ _ _ _ e0 e1 e2 e3 e4

end Cert.Kernel.Hand

end
-- ==== Proof.K.BodyRunB.lean ====
/-
  The kernel body at a point where the accumulator is carried (some grid coordinate nonzero).

  On whole staging buffers, the four inputs at their contents and the accumulator at what it held, the body runs to the
  continuation with the inputs as they were and the accumulator at the tile's sum added to what it held: the one store
  covers the accumulator.
-/
import proofs.«179323_j33148557590854_1_alg».proof.Proof.K.BodyRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- The body where the reset is not taken: the accumulator, found at `acc`, is left at the tile's sum over `acc`. -/
theorem bodyRun_later (c : Dev nD) (i : grid0.Coords)
    (arg2 : Memref sig .tc .vmem S1024x3 .f32) (harg2 : arg2.IsWhole) (arg3 : Memref sig .tc .vmem S1024x3 .f32) (harg3 : arg3.IsWhole)
    (arg4 : Memref sig .tc .vmem S1024x1024 .f32) (harg4 : arg4.IsWhole) (arg5 : Memref sig .tc .vmem S1024x1024 .f32) (harg5 : arg5.IsWhole)
    (arg6 : Memref sig .tc .vmem S1x1 .f32) (harg6 : arg6.IsWhole) (hc : ¬resetCond i)
    (x0 x1 : Vec F S1024x3 .f32) (x2 x3 : Vec F S1024x1024 .f32) (acc : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare acc
        ∗ (iprop(owns (c : Thread nD τ) arg2 fullShare x0 ∗ owns (c : Thread nD τ) arg3 fullShare x1 ∗ owns (c : Thread nD τ) arg4 fullShare x2
            ∗ owns (c : Thread nD τ) arg5 fullShare x3
            ∗ owns (c : Thread nD τ) arg6 fullShare (tileSum i x0 x1 x2 x3 acc)) -∗ K ⟨⟩))
      ⊢ wp frame (wpE (defs₀ (F := F)) Variants.none c none) E (cc0__lj_kernel i arg2 harg2 arg3 harg3 arg4 harg4 arg5 harg5 arg6 harg6) K := by
  simp only [cc0__lj_kernel_eq_skeleton]; unfold cc0__lj_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact H4
  ipureintro
  refine (read_writes_unit_full arg6.view _ _ _ (by decide) _ _).trans ?_
  have e0 := readAt_unit_full_unread harg2 x0 ![0, 0] inb_S1024x3_S1024x3_0_0 (by decide)
  have e1 := readAt_unit_full_unread harg3 x1 ![0, 0] inb_S1024x3_S1024x3_0_0 (by decide)
  have e2 := readAt_unit_full_unread harg4 x2 ![0, 0] inb_S1024x1024_S1024x1024_0_0 (by decide)
  have e3 := readAt_unit_full_unread harg5 x3 ![0, 0] inb_S1024x1024_S1024x1024_0_0 (by decide)
  have e4 := readAt_unit_full_unread harg6 acc ![0, 0] inb_S1x1_S1x1_0_0 (by decide)
  sl_unfold_run_names
  dsimp only
  have key : ∀ (a0 a1 : Vec F S1024x3 .f32) (a2 a3 : Vec F S1024x1024 .f32) (a4 : Vec F S1x1 .f32), a0 = x0 → a1 = x1 → a2 = x2 → a3 = x3 →
      a4 = acc → tileSum i a0 a1 a2 a3 a4 = tileSum i x0 x1 x2 x3 acc := by
    intro a0 a1 a2 a3 a4 h0 h1 h2 h3 h4; subst h0 h1 h2 h3 h4; rfl
  exact key _ _ _ _ _ e0 e1 e2 e3 e4

end Cert.Kernel.Hand

end
-- ==== Proof.K.Body.lean ====
/-
  The kernel body's obligation to the pipeline.

  At every point of the 8×8 grid the four input windows' current staging buffers hold their blocks of the arrays as the
  region finds them. The output window is one [1,1] accumulator resident over the whole grid: at the first point the
  body resets it and adds the tile's sum; at every later point the buffer still holds what the body left at the point
  before (it is written back at the last point only) and the body adds the tile's sum to that. So after the body at each
  point the accumulator holds the recursion of the proof data, and the inputs are as they were.
-/
import proofs.«179323_j33148557590854_1_alg».proof.Proof.K.BodyRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The staging buffers the body is called with -/

/-- Each window's current staging memref at point `t`, as the pipeline passes it to the body, and its wholeness. -/
abbrev ms0 (t : Fin cfg0.N) : Memref sig .tc .vmem S1024x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)

/-! ## What the body finds in each buffer -/

/-- Each input's current staging buffer holds its block at every point, fetched there or not: unfetched, the block
    index has not moved and the body left the block in place. -/
theorem before_in0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before_in1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before_in2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before_in3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

/-- At a point after the first the accumulator's buffer holds what the body left at the point before: it is written
    back at the last point only, so never between two points of the grid. -/
theorem before_acc (c : Dev nD) (t : Fin cfg0.N) (h0 : ¬t.val % 64 = 0) (d) :
    (dats m 0 c).before 4 t d = outsAt m c (t.val - 1) (Nat.lt_of_le_of_lt (Nat.sub_le _ _) t.isLt) := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    (fun _ => rfl) (fun _ _ => rfl)]
  dsimp only [dats]

/-! ## What the accumulator holds after each point, by the point's case -/

/-- The accumulator's step at a point is the tile's sum at the point's coordinates and blocks. -/
theorem stepOut_eq (c : Dev nD) (t : Fin cfg0.N) (prev : Vec F S1x1 .f32) :
    stepOut m c t prev = tileSum (grid0.coords t) (iblk m c 0 t) (iblk m c 1 t) (iblk m c 2 t) (iblk m c 3 t) prev := rfl

/-- At the first point: the tile's sum over the reset value. -/
theorem outsAt_first (c : Dev nD) (t : Fin cfg0.N) (h0 : t.val % 64 = 0) :
    outsAt m c t.val t.isLt = tileSum (grid0.coords t) (iblk m c 0 t) (iblk m c 1 t) (iblk m c 2 t) (iblk m c 3 t) (k0_pay2 (F := F)) := by
  have hN : t.val < 64 := lt_of_lt_of_eq t.isLt (show cfg0.N = 64 from N_0)
  obtain ⟨n, hn⟩ := t
  cases n with
  | zero => exact rfl
  | succ n => exact absurd h0 (by dsimp only at hN ⊢; omega)

/-- At a later point: the tile's sum over what the point before left. -/
theorem outsAt_later (c : Dev nD) (t : Fin cfg0.N) (h0 : ¬t.val % 64 = 0) :
    outsAt m c t.val t.isLt = tileSum (grid0.coords t) (iblk m c 0 t) (iblk m c 1 t) (iblk m c 2 t) (iblk m c 3 t)
      (outsAt m c (t.val - 1) (Nat.lt_of_le_of_lt (Nat.sub_le _ _) t.isLt)) := by
  obtain ⟨n, hn⟩ := t
  cases n with
  | zero => exact absurd (Nat.zero_mod _) h0
  | succ n => exact rfl

/-! ## The body obligation, at a generic point -/

/-- What the body is called with at point `t`: the invariant, what the core owes, and the five windows' current buffers, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 800000 in
/-- The body at any point: the inputs' buffers hold their blocks; at the first point the reset is taken and the
    accumulator, found at anything, is left at the tile's sum over the reset value; at a later point it holds what the
    point before left and is left at the tile's sum over that. The invariant passes through unread; the core owes
    nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3]
  rw [show (dats m 0 c).Φ t.succ = (dats m 0 c).Φ t.castSucc from rfl,
    show (dats m 0 c).owesAt () t.succ = (dats m 0 c).owesAt () t.castSucc from rfl,
    after0_0, after0_1, after0_2, after0_3, after0_4]
  by_cases h0 : t.val % 64 = 0
  · rw [outsAt_first m c t h0]
    iintro ⟨HΦ, Ho, ⟨%d0, H0⟩, ⟨%d1, H1⟩, ⟨%d2, H2⟩, ⟨%d3, H3⟩, ⟨%d4, H4⟩⟩
    iapply (bodyRun_first c (grid0.coords t) _ _ _ _ _ _ _ _ _ _ ((resetCond_iff t).mpr h0)
      (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [outsAt_later m c t h0]
    simp only [before_acc m c t h0]
    iintro ⟨HΦ, Ho, ⟨%d0, H0⟩, ⟨%d1, H1⟩, ⟨%d2, H2⟩, ⟨%d3, H3⟩, ⟨%d4, H4⟩⟩
    iapply (bodyRun_later c (grid0.coords t) _ _ _ _ _ _ _ _ _ _ (fun h => h0 ((resetCond_iff t).mp h))
      (iblk m c 0 t) (iblk m c 1 t) (iblk m c 2 t) (iblk m c 3 t) _ Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KI.Data.lean ====
/-
  What the pipeline's staging buffers hold around the kernel body, point by point.

  The region is entered after the host lines that compute the bond term; `V` names the buffers' contents there.
  Each of the four input windows holds, at every grid point, its block of the array behind it. The output window is a
  single [1,1] accumulator resident over the whole grid: after the body at the first point it holds the reset value
  plus that tile's share, and after every later point what the point before left plus the tile's share.
-/
import proofs.«179323_j33148557590854_1_alg».proof.Proof.Gen.KernelIdeal.Launch
import proofs.«179323_j33148557590854_1_alg».proof.Proof.Gen.KernelIdeal.Skeleton
import proofs.«179323_j33148557590854_1_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- The core's buffer contents when the region is entered: after the host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The accumulator after the body at point `t`, given what it held when the tile's share is added: the body's one
    store, over the point's four input blocks. -/
def stepOut (c : Dev nD) (t : Fin cfg0.N) (prev : Vec F S1x1 .f32) : Vec F S1x1 .f32 :=
  k0_pay1 (k0_pay3 (iblk m c 0 t) (iblk m c 1 t)) (Scalar.muli (BitVec.ofNat 32 ((grid0.coords t) 1).val) 1024#32)
    (k0_pay4 (grid0.coords t)) (iota .tc S1024x1024 32 [1] iota_S1024x1024_d1_w32) (iblk m c 2 t) (iblk m c 3 t) prev

/-- The accumulator after the body at each point: reset then added to at the first, carried and added to afterwards. -/
def outsAt (c : Dev nD) : (n : ℕ) → n < cfg0.N → Vec F S1x1 .f32
  | 0, hn => stepOut m c ⟨0, hn⟩ (k0_pay2 (F := F))
  | n + 1, hn => stepOut m c ⟨n + 1, hn⟩ (outsAt c n (Nat.lt_of_succ_lt hn))

theorem outsAt_zero (c : Dev nD) (hn : 0 < cfg0.N) : outsAt m c 0 hn = stepOut m c ⟨0, hn⟩ (k0_pay2 (F := F)) := rfl
theorem outsAt_succ (c : Dev nD) (n : ℕ) (hn : n + 1 < cfg0.N) :
    outsAt m c (n + 1) hn = stepOut m c ⟨n + 1, hn⟩ (outsAt m c n (Nat.lt_of_succ_lt hn)) := rfl

/-- The proof data of the one pipeline on core `c`: the arrays as the region finds them; after the body each input's
    buffer at its block and the accumulator at `outsAt`; the two windows that read the coordinate array hold it at the
    two halves of the full share, every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outsAt m c t.val t.isLt
  Φ _ := Pipeline.ΦA spec0 c
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outsAt m c t.val t.isLt := by dsimp only [dats]

end Cert.KernelIdeal.Hand

end
-- ==== Proof.KI.Launch.lean ====
/-
  The launch of the one pipeline, by the launch theorem's fields.

  Two of the five windows read the same coordinate array, so the arrays behind the windows are four buffers, not five:
  at the region's entry each is held whole, and the coordinate array's full share is split into its two halves, one per
  reader; the accumulator's array and the two pair tables go whole to their windows. @main runs the host lines of the
  bond term, then the region, then two more host lines (a reshape of the accumulator and the final sum); those last lines
  touch only the accumulator's array and buffers that bypass the region, so they run holding just these, and the windows'
  other arrays pass by them untouched. The run ends with every window's array at what the pipeline library computes
  from the proof data and every bypassing buffer at the last lines' results.
-/
import proofs.«179323_j33148557590854_1_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines of the bond term, the region, and two more host lines: it reduces to the region continued by
    the later lines, entered at the contents the earlier lines leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The contents the lines after the region start from: the accumulator's array at what the region wrote back, every
    other buffer as the region found it. -/
def W0 (c : Dev nD) : Valuation τ sig (Elt F) :=
  Function.update (V0 m c) (Proc.devRef .tc main_v26) ((dats m 0 c).arrAt 4 cfg0.N)

/-- The contents after those lines. -/
def tailV (c : Dev nD) (b : Ref sig .tc) : Buf (Elt F) ((c.tc : Thread nD τ).loc b) :=
  StableHlo.after (List.flatten [hostOps1]) (W0 m c) (Proc.devRef .tc b)

/-- The distinct buffers behind the five windows' arrays. -/
theorem arrRefs_eq : Finset.univ.image (Pipeline.arrRef spec0) = ([main_arg0, main_arg4, main_arg5, main_v26] : List (Ref sig .tc)).toFinset := by decide

theorem bigSep_arrRefs {M : Type} [URA M] (Φ : Ref sig .tc → sProp M) :
    bigSep (Finset.univ.image (Pipeline.arrRef spec0)) Φ = iprop(Φ main_arg0 ∗ Φ main_arg4 ∗ Φ main_arg5 ∗ Φ main_v26) :=
  bigSep_eq_bigSepL_of_eq [main_arg0, main_arg4, main_arg5, main_v26] arrRefs_eq (by decide) Φ

/-- A window's array, a whole buffer, held at the window's share: the points-to of the buffer behind it. -/
theorem arr_piece (c : Dev nD) (w : Fin 5) (q : PosShare TreeShare) (hq : (dats m 0 c).share w = q)
    (f : Buf (Elt F) ((cfg0.win w).arr.view.loc (c.tc : Thread nD τ))) :
    ((cfg0.win w).arr.view.loc (c.tc : Thread nD τ) ↦[(cfg0.win w).arr.view.set]{(dats m 0 c).share w} f : sProp 𝕄)
      = (((c.tc : Thread nD τ).loc (Pipeline.arrRef spec0 w)) ↦{q} f) := by
  rw [(arr_whole0 w).set_eq_univ, hq]

/-- At the region's entry the buffers behind the arrays, each whole, are dealt among the windows: the coordinate array's
    two readers take the two halves of its full share, every other window its array whole. -/
theorem split_arrays (c : Dev nD) :
    (Pipeline.arrBufs spec0 c (V m c) : sProp 𝕄) ⊢ (dats m 0 c).arrays ((dats m 0 c).arrAt · 0) := by
  unfold Pipeline.arrBufs Dat.arrays
  rw [bigSep_arrRefs, bigSep_W0,
    arr_piece m c 0 fullShare.left rfl, arr_piece m c 1 fullShare.right rfl, arr_piece m c 2 fullShare rfl,
    arr_piece m c 3 fullShare rfl, arr_piece m c 4 fullShare rfl]
  iintro ⟨H0, H4, H5, H26⟩
  ihave H0' := (pointsTo_share (PosShare.mem_left_op_right fullShare)).1 $$ H0
  icases H0' with ⟨H0l, H0r⟩
  isplitl [H0l]; · iexact H0l
  isplitl [H0r]; · iexact H0r
  isplitl [H4]; · iexact H4
  isplitl [H5]; · iexact H5
  iexact H26

/-- The accumulator's array is none of the buffers that bypass the region. -/
theorem v26_not_rest : main_v26 ∉ Pipeline.restRefsP sig Pipeline.Prefetch.none spec0 := fun h =>
  (Finset.mem_sdiff.mp (Finset.mem_sdiff.mp h).1).2 (Finset.mem_image.mpr ⟨4, Finset.mem_univ _, rfl⟩)

/-- The buffers the lines after the region may touch: the accumulator's array and the buffers that bypass the region. -/
def tailSet : Finset (DevRef τ sig) :=
  (insert main_v26 (Pipeline.restRefsP sig Pipeline.Prefetch.none spec0)).map ⟨Proc.devRef (sig := sig) .tc, Proc.devRef_injective _⟩

/-- The accumulator's array as the pipeline hands it back. -/
def accPt (c : Dev nD) : sProp 𝕄 :=
  ((cfg0.win 4).arr.view.loc (c.tc : Thread nD τ) ↦[(cfg0.win 4).arr.view.set]{(dats m 0 c).share 4} (dats m 0 c).arrAt 4 cfg0.N)

theorem W0_v26 (c : Dev nD) : W0 m c (Proc.devRef .tc main_v26) = (dats m 0 c).arrAt 4 cfg0.N := by
  unfold W0; exact Function.update_self ..

theorem W0_rest (c : Dev nD) (b : Ref sig .tc) (hb : b ∈ Pipeline.restRefsP sig Pipeline.Prefetch.none spec0) :
    W0 m c (Proc.devRef .tc b) = V m c b := by
  unfold W0
  exact Function.update_of_ne (StableHlo.devRef_ne_of_ne (x := b) (y := main_v26) fun e => v26_not_rest (by rw [← e]; exact hb)) ..

theorem held_tail (c : Dev nD) (Wv : Valuation τ sig (Elt F)) (h26 : Wv (Proc.devRef .tc main_v26) = (dats m 0 c).arrAt 4 cfg0.N) :
    (StableHlo.held (c.tc : Thread nD τ) tailSet Wv : sProp 𝕄)
      = iprop(accPt m c ∗ Pipeline.unscopedRestP Pipeline.Prefetch.none spec0 c (fun b => Wv (Proc.devRef .tc b))) := by
  classical
  unfold StableHlo.held tailSet accPt Pipeline.unscopedRestP
  rw [bigSep_map, bigSep_insert v26_not_rest, arr_piece m c 4 fullShare rfl, ← h26]
  rfl

theorem v26_mem_tailSet : Proc.devRef (τ := τ) .tc main_v26 ∈ tailSet :=
  Finset.mem_map.mpr ⟨_, Finset.mem_insert_self _ _, rfl⟩

theorem mem_tailSet_rest (b : Ref sig .tc) (hs : b.isScoped = false) (ha : ∀ w, (spec0 w).arr.view.ref ≠ b) :
    Proc.devRef (τ := τ) .tc b ∈ tailSet := by
  unfold tailSet
  refine Finset.mem_map.mpr ⟨b, Finset.mem_insert_of_mem ?_, rfl⟩
  rw [Pipeline.restRefsP]
  exact Finset.mem_sdiff.mpr ⟨Pipeline.mem_restRefs_of b hs ha, fun h => by obtain ⟨k, -, -⟩ := Finset.mem_image.mp h; exact k.elim0⟩

/-- The two lines after the region read the accumulator's array and the bond term and write two fresh scalars. -/
theorem hostOps1_within : ∀ ops ∈ ([hostOps1] : List (List (HloOp τ sig (Elt F)))), ∀ op ∈ ops, op.bufs ⊆ tailSet := by
  intro ops hops op hop
  simp only [List.mem_cons, List.mem_nil_iff, or_false] at hops
  subst hops
  simp only [hostOps1, List.mem_cons, List.mem_nil_iff, or_false] at hop
  rcases hop with rfl | rfl
  · rw [StableHlo.reshape_bufs]
    intro b hb
    simp only [Finset.mem_insert, Finset.mem_singleton] at hb
    rcases hb with rfl | rfl
    · exact v26_mem_tailSet
    · exact mem_tailSet_rest main_v27 (by decide) (by decide)
  · rw [StableHlo.binary_bufs]
    intro b hb
    simp only [Finset.mem_insert, Finset.mem_singleton] at hb
    rcases hb with rfl | rfl | rfl
    · exact mem_tailSet_rest main_v25 (by decide) (by decide)
    · exact mem_tailSet_rest main_v27 (by decide) (by decide)
    · exact mem_tailSet_rest main_v28 (by decide) (by decide)

theorem hostOps1_allocs : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

theorem hostOps1_keeps : ∀ op ∈ List.flatten [(hostOps1 : List (HloOp τ sig (Elt F)))], Proc.devRef .tc main_v26 ∉ op.writes := by
  intro op hop
  simp only [List.flatten_cons, List.flatten_nil, List.append_nil, hostOps1, List.mem_cons, List.mem_nil_iff, or_false] at hop
  rcases hop with rfl | rfl
  · simp only [StableHlo.reshape_writes, Finset.mem_singleton]; exact StableHlo.devRef_ne_of_ne (by decide)
  · simp only [StableHlo.binary_writes, Finset.mem_singleton]; exact StableHlo.devRef_ne_of_ne (by decide)

set_option backward.isDefEq.respectTransparency.types false in
/-- The lines after the region, run from the accumulator's array as the pipeline hands it back and the bypassing buffers
    as the region found them, to the same array and the bypassing buffers at the lines' results. -/
theorem tail_core (c : Dev nD) (Q' : PUnit → sProp 𝕄) :
    iprop((iprop(accPt m c ∗ Pipeline.unscopedRestP Pipeline.Prefetch.none spec0 c (tailV m c)) -∗ Q' ⟨⟩)
        ∗ boundary (c.tc : Thread nD τ) ∗ accPt m c ∗ Pipeline.unscopedRestP Pipeline.Prefetch.none spec0 c (V m c))
      ⊢ wp frame (wpE (Pipeline.defs (fun q => (cfgs q).toPCfg (Val := Elt F)) defs₀) (Variants.lift Variants.none) (c.tc : Thread nD τ) none) Set.univ
          (Pipeline.chain ([hostOps1].map StableHlo.seq)) Q' := by
  classical
  have hZ : (Pipeline.unscopedRestP Pipeline.Prefetch.none spec0 c (fun b => W0 m c (Proc.devRef .tc b)) : sProp 𝕄)
      = Pipeline.unscopedRestP Pipeline.Prefetch.none spec0 c (V m c) := by
    unfold Pipeline.unscopedRestP
    exact bigSep_congr fun b hb => by beta_reduce; rw [W0_rest m c b hb]
  have hW := held_tail m c (W0 m c) (W0_v26 m c)
  rw [hZ] at hW
  have hW' := held_tail m c (StableHlo.after (List.flatten [hostOps1]) (W0 m c))
    (by rw [StableHlo.after_of_forall_not_mem _ _ hostOps1_keeps, W0_v26])
  rw [← List.append_nil ([hostOps1].map StableHlo.seq), ← hW]
  iintro ⟨Hk, Hb⟩
  iapply (Pipeline.wp_seqs_then (fun q => (cfgs q).toPCfg (Val := Elt F)) defs₀ Variants.none c tailSet [] [hostOps1] hostOps1_within hostOps1_allocs (W0 m c)) $$ Hb
  iintro Hb
  rw [Pipeline.chain_nil, wp_pure, hW']
  imodintro
  iapply Hk
  icases Hb with ⟨-, H⟩
  iexact H

theorem tail_run (c : Dev nD) (Q' : PUnit → sProp 𝕄) :
    iprop((iprop((dats m 0 c).arrays ((dats m 0 c).arrAt · cfg0.N) ∗ Pipeline.unscopedRestP Pipeline.Prefetch.none spec0 c (tailV m c)) -∗ Q' ⟨⟩)
        ∗ boundary (c.tc : Thread nD τ) ∗ (dats m 0 c).arrays ((dats m 0 c).arrAt · cfg0.N)
        ∗ Pipeline.unscopedRestP Pipeline.Prefetch.none spec0 c (V m c))
      ⊢ wp frame (wpE (Pipeline.defs (fun q => (cfgs q).toPCfg (Val := Elt F)) defs₀) (Variants.lift Variants.none) (c.tc : Thread nD τ) none) Set.univ
          (Pipeline.chain ([hostOps1].map StableHlo.seq)) Q' := by
  have hcore := tail_core m c Q'
  unfold accPt at hcore
  unfold Dat.arrays
  rw [bigSep_W0]
  beta_reduce
  iintro ⟨Hk, Hb, ⟨A0, A1, A2, A3, A4⟩, HZ⟩
  iapply hcore
  isplitl [Hk A0 A1 A2 A3]
  · iintro ⟨A4, HZ'⟩
    iapply Hk
    isplitr [HZ']
    · isplitl [A0]; · iexact A0
      isplitl [A1]; · iexact A1
      isplitl [A2]; · iexact A2
      isplitl [A3]; · iexact A3
      iexact A4
    · iexact HZ'
  · isplitl [Hb]; · iexact Hb
    isplitl [A4]; · iexact A4
    iexact HZ

theorem run_main (hbody : ∀ c, BodyObligation (dats (F := F) m 0 c) (defs₀ (F := F)) Variants.none () Set.univ) :
    θ_run defs (onTc (τ := τ) (main (F := F))) (s₀ m ρ) (fun r => ∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b) = tailV m c b) := by
  classical
  exact Pipeline.θ_run_region_pf_tail (fun q => (cfgs q).toPCfg (Val := Elt F)) (fun q => (cfgs q).toPCfg_adm) (dats m) () cellOf_inj 0
    winFacts₀0 (Pipeline.OwnSemFacts.none spec0) (Pipeline.PreFacts.none _) emb₁ defs₀ Variants.none m ρ main
    (fun _ => Pipeline.chain ([hostOps1].map StableHlo.seq)) (fun c => (hbody c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := split_arrays m)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (tailV m c))
    (hX := fun c => by
      iintro ⟨HU, -, -, -, Hp, -⟩; imodintro
      isplitl [Hp]; · iexists _; iexact Hp
      iexact HU)
    (hin := fun c => by
      show _ ⊢ Pipeline.ΦA spec0 c
      unfold Pipeline.ΦA; iintro ⟨Hp, Ht, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := tail_run m)
    (QY := fun c s => ∀ b ∈ Pipeline.restRefsP sig Pipeline.Prefetch.none spec0, s.mem ((c.tc : Thread nD τ).loc b) = tailV m c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (tailV m c) s')
      isplitl [HU] <;> iassumption)
    (hQ := fun s h c => ⟨(h c).1, fun b hb => (h c).2.2 b (by rw [Pipeline.restRefsP]; exact Finset.mem_sdiff.mpr ⟨hb, fun h => by obtain ⟨k, -, -⟩ := Finset.mem_image.mp h; exact k.elim0⟩)⟩)

end Cert.KernelIdeal.Hand

end
-- ==== Proof.KI.Final.lean ====
/-
  What the run leaves: the six argument arrays as launched, and the result at the bond term plus the accumulator.

  The host lines write only their own result buffers, never an argument; the input windows' arrays are never written by the
  pipeline; the accumulator's [1,1] array is written back once, after the last grid point, with what that point left; and
  the two lines after the region reshape that entry to a scalar and add it to the bond term.
-/
import proofs.«179323_j33148557590854_1_alg».proof.Proof.KI.Launch
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The arguments are not written by the host lines -/

theorem V_main_arg0 (c : Dev nD) : V m c main_arg0 = m ((c.tc : Thread nD τ).loc main_arg0) := by
  show StableHlo.after (List.flatten [hostOps0]) (fun b => m (c, b)) (Proc.devRef .tc main_arg0) = _
  simp only [List.flatten_cons, List.flatten_nil, List.append_nil, hostOps0]
  after_results_simp <;> rfl
theorem V_main_arg1 (c : Dev nD) : V m c main_arg1 = m ((c.tc : Thread nD τ).loc main_arg1) := by
  show StableHlo.after (List.flatten [hostOps0]) (fun b => m (c, b)) (Proc.devRef .tc main_arg1) = _
  simp only [List.flatten_cons, List.flatten_nil, List.append_nil, hostOps0]
  after_results_simp <;> rfl
theorem V_main_arg2 (c : Dev nD) : V m c main_arg2 = m ((c.tc : Thread nD τ).loc main_arg2) := by
  show StableHlo.after (List.flatten [hostOps0]) (fun b => m (c, b)) (Proc.devRef .tc main_arg2) = _
  simp only [List.flatten_cons, List.flatten_nil, List.append_nil, hostOps0]
  after_results_simp <;> rfl
theorem V_main_arg3 (c : Dev nD) : V m c main_arg3 = m ((c.tc : Thread nD τ).loc main_arg3) := by
  show StableHlo.after (List.flatten [hostOps0]) (fun b => m (c, b)) (Proc.devRef .tc main_arg3) = _
  simp only [List.flatten_cons, List.flatten_nil, List.append_nil, hostOps0]
  after_results_simp <;> rfl
theorem V_main_arg4 (c : Dev nD) : V m c main_arg4 = m ((c.tc : Thread nD τ).loc main_arg4) := by
  show StableHlo.after (List.flatten [hostOps0]) (fun b => m (c, b)) (Proc.devRef .tc main_arg4) = _
  simp only [List.flatten_cons, List.flatten_nil, List.append_nil, hostOps0]
  after_results_simp <;> rfl
theorem V_main_arg5 (c : Dev nD) : V m c main_arg5 = m ((c.tc : Thread nD τ).loc main_arg5) := by
  show StableHlo.after (List.flatten [hostOps0]) (fun b => m (c, b)) (Proc.devRef .tc main_arg5) = _
  simp only [List.flatten_cons, List.flatten_nil, List.append_nil, hostOps0]
  after_results_simp <;> rfl

/-- A bypassing buffer the last two lines do not write ends as the region found it. -/
theorem tailV_keep (c : Dev nD) (b : Ref sig .tc) (h26 : b ≠ main_v26) (h27 : b ≠ main_v27) (h28 : b ≠ main_v28) :
    tailV m c b = V m c b := by
  unfold tailV
  rw [StableHlo.after_of_forall_not_mem _ _ fun op hop => ?_]
  · unfold W0; exact Function.update_of_ne (StableHlo.devRef_ne_of_ne h26) ..
  · simp only [List.flatten_cons, List.flatten_nil, List.append_nil, hostOps1, List.mem_cons, List.mem_nil_iff, or_false] at hop
    rcases hop with rfl | rfl
    · simp only [StableHlo.reshape_writes, Finset.mem_singleton]; exact StableHlo.devRef_ne_of_ne h27
    · simp only [StableHlo.binary_writes, Finset.mem_singleton]; exact StableHlo.devRef_ne_of_ne h28

/-- The program's result: the bond term plus the accumulator's one entry. -/
theorem tailV_result (c : Dev nD) :
    tailV m c main_v28 = addf (V m c main_v25) (shapeCast S_ ((dats m 0 c).arrAt 4 cfg0.N) shapeCasts_S1x1_S_) := by
  unfold tailV
  simp only [List.flatten_cons, List.flatten_nil, List.append_nil, hostOps1]
  after_results
  rw [W0_v26]
  unfold W0
  rw [Function.update_of_ne (StableHlo.devRef_ne_of_ne (by decide))]
  rfl

/-! ## The accumulator's array after the region -/

instance : Subsingleton S1x1.Idx :=
  ⟨fun a b => funext fun d => by
    match d with
    | ⟨0, _⟩ => exact Fin.ext (by have := (a ⟨0, by decide⟩).isLt; have := (b ⟨0, by decide⟩).isLt; simp at *; omega)
    | ⟨1, _⟩ => exact Fin.ext (by have := (a ⟨1, by decide⟩).isLt; have := (b ⟨1, by decide⟩).isLt; simp at *; omega)⟩

/-- The accumulator is written back once, after the last point: its array ends at what the last point left. -/
theorem acc_final (c : Dev nD) : (dats m 0 c).arrAt 4 cfg0.N = outsAt m c 63 (by decide) := by
  refine (dats m 0 c).arrAt_eq_of_cover 4 (outsAt m c 63 (by decide)) (fun t hf => ?_) (fun i => ?_)
  · have h63 : t.val = 63 := by
      have := (flush0_4 t).mp hf
      have hN : t.val < 64 := lt_of_lt_of_eq t.isLt N_0
      omega
    obtain rfl : t = ⟨63, by decide⟩ := Fin.ext h63
    funext y
    rw [View.read_apply]
    show (dats m 0 c).after 4 ⟨63, _⟩ y = _
    rw [after0_4]
    exact congrArg _ (Subsingleton.elim (α := S1x1.Idx) _ _)
  · refine ⟨⟨63, by decide⟩, (flush0_4 _).mpr (by decide), ?_⟩
    have h := ((cfg0.win 4).blk ⟨63, by decide⟩).view.emb_mem_set (fun d => ⟨0, by fin_cases d <;> decide⟩)
    exact (Subsingleton.elim (α := S1x1.Idx) _ i) ▸ h

/-! ## The run's two readings -/

/-- The frame: the run ends with the six argument arrays as launched. -/
theorem frame_run (hbody : ∀ c, BodyObligation (dats (F := F) m 0 c) (defs₀ (F := F)) Variants.none () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 0).trans (((dats m 0 c).arrAt_in 0 rfl _).trans (V_main_arg0 m c)),
     ((h c).2 main_arg1 (Pipeline.mem_restRefs_of main_arg1 (by decide) (by decide))).trans
        ((tailV_keep m c main_arg1 (by decide) (by decide) (by decide)).trans (V_main_arg1 m c)),
     ((h c).2 main_arg2 (Pipeline.mem_restRefs_of main_arg2 (by decide) (by decide))).trans
        ((tailV_keep m c main_arg2 (by decide) (by decide) (by decide)).trans (V_main_arg2 m c)),
     ((h c).2 main_arg3 (Pipeline.mem_restRefs_of main_arg3 (by decide) (by decide))).trans
        ((tailV_keep m c main_arg3 (by decide) (by decide) (by decide)).trans (V_main_arg3 m c)),
     ((h c).1 2).trans (((dats m 0 c).arrAt_in 2 rfl _).trans (V_main_arg4 m c)),
     ((h c).1 3).trans (((dats m 0 c).arrAt_in 3 rfl _).trans (V_main_arg5 m c))⟩)
    (run_main m ρ hbody)

/-- The value: the run ends with the result at the bond term plus what the last point left in the accumulator, and the
    six argument arrays as launched. -/
theorem value_run (hbody : ∀ c, BodyObligation (dats (F := F) m 0 c) (defs₀ (F := F)) Variants.none () Set.univ) :
    θ_run defs (onTc (τ := τ) (main (F := F))) ⟨m, fun _ => 0, ρ⟩ (fun r => ∀ c : Dev nD,
      r.2.mem ((c.tc : Thread nD τ).loc main_v28)
        = addf (V m c main_v25) (shapeCast S_ (outsAt m c 63 (by decide)) shapeCasts_S1x1_S_)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v28 (Pipeline.mem_restRefs_of main_v28 (by decide) (by decide))).trans
        ((tailV_result m c).trans (by rw [acc_final])),
     ((h c).1 0).trans (((dats m 0 c).arrAt_in 0 rfl _).trans (V_main_arg0 m c)),
     ((h c).2 main_arg1 (Pipeline.mem_restRefs_of main_arg1 (by decide) (by decide))).trans
        ((tailV_keep m c main_arg1 (by decide) (by decide) (by decide)).trans (V_main_arg1 m c)),
     ((h c).2 main_arg2 (Pipeline.mem_restRefs_of main_arg2 (by decide) (by decide))).trans
        ((tailV_keep m c main_arg2 (by decide) (by decide) (by decide)).trans (V_main_arg2 m c)),
     ((h c).2 main_arg3 (Pipeline.mem_restRefs_of main_arg3 (by decide) (by decide))).trans
        ((tailV_keep m c main_arg3 (by decide) (by decide) (by decide)).trans (V_main_arg3 m c)),
     ((h c).1 2).trans (((dats m 0 c).arrAt_in 2 rfl _).trans (V_main_arg4 m c)),
     ((h c).1 3).trans (((dats m 0 c).arrAt_in 3 rfl _).trans (V_main_arg5 m c))⟩)
    (run_main m ρ hbody)

end Cert.KernelIdeal.Hand

end
-- ==== Proof.KI.BodyRunA.lean ====
/-
  The kernel body at a point where the accumulator is reset (both grid coordinates zero), and what the body's two
  runs share.

  Every access of the body goes through the full-extent rectangle at offset zero of a whole staging buffer: a load
  through it reads the buffer's contents as they are, and a store through it leaves exactly the stored vector, whatever
  the buffer held. The body's one conditional resets the accumulator; its condition, a word computed from the two grid
  coordinates, holds exactly at the first of the 64 points.

  On whole staging buffers, the four inputs at their contents and the accumulator at anything, the body at such a point
  runs to the continuation with the inputs as they were and the accumulator at the tile's sum added to the reset value:
  the reset store covers the accumulator, so the load that follows reads the reset value, and the final store covers it
  again.
-/
import proofs.«179323_j33148557590854_1_alg».proof.Proof.KI.Data
import Idealize.ShloMosaic.Lib.WholeRead

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Reading back through a whole memref: the full-extent rectangle at offset zero -/

/-- The full-extent unit rectangle at offset zero places every index at itself. -/
theorem unit_full_emb {s : Shape} (off : Fin s.rank → ℕ) (inb : ∀ a, off a + s.size a ≤ s.size a) (hoff : ∀ a, off a = 0)
    (y : s.Idx) : (Rect.unit off s.size inb).emb y = y := by
  funext a
  apply Fin.ext
  rw [Rect.emb_apply]
  simp only [Rect.off_unit, Rect.stride_unit, hoff a, Nat.zero_add, Nat.one_mul]

/-- A store of `w` through the full-extent rectangle reads back as `w`, whatever the buffer held and whatever was written before. -/
theorem read_writes_unit_full {Val : EltTy → Type} {κ : Kind} {sp : Space} {s : Shape} {e : EltTy} (v : View sig κ sp s e) (f : v.ty.Contents Val)
    (off : Fin s.rank → ℕ) (inb : ∀ a, off a + s.size a ≤ s.size a) (hoff : ∀ a, off a = 0) (w : s.Idx → Val e)
    (L : List (View.Piece Val s e)) :
    v.read Val (v.writes Val f (⟨Rect.unit off s.size inb, w⟩ :: L)) = w := by
  funext y
  have h := View.read_writes_cons_emb v f (Rect.unit off s.size inb) w L y
  rwa [unit_full_emb off inb hoff y] at h

/-- A load through the full-extent rectangle of a whole memref held at the contents that read `X` reads `X`. -/
theorem readAt_unit_full_unread {Val : EltTy → Type} {κ : Kind} {sp : Space} {s : Shape} {e : EltTy} {mr : Memref sig κ sp s e} (h : mr.IsWhole)
    (X : s.Idx → Val e) (off : Fin s.rank → ℕ) (inb : ∀ a, off a + s.size a ≤ s.size a) (hoff : ∀ a, off a = 0) :
    View.readAt Val mr.view (Rect.unit off s.size inb).toLoadRect (h.unread X) = X := by
  funext y
  exact (h.readAt_unread X _ y).trans (congrArg X (unit_full_emb off inb hoff y))

/-- A load through the full-extent rectangle after a store of `w` through it reads `w`. -/
theorem readCov_unit_full {Val : EltTy → Type} [∀ e, Nonempty (Val e)] {κ : Kind} {sp : Space} {s : Shape} {e : EltTy} (v : View sig κ sp s e)
    (off : Fin s.rank → ℕ) (inb : ∀ a, off a + s.size a ≤ s.size a) (hoff : ∀ a, off a = 0)
    (off' : Fin s.rank → ℕ) (inb' : ∀ a, off' a + s.size a ≤ s.size a) (hoff' : ∀ a, off' a = 0) (w : s.Idx → Val e)
    (L : List (View.Piece Val s e)) :
    v.readCov (⟨Rect.unit off s.size inb, w⟩ :: L) (Rect.unit off' s.size inb').toLoadRect = w := by
  unfold View.readCov
  funext y
  rw [View.readAt_apply]
  exact (congrArg _ (unit_full_emb off' inb' hoff' y)).trans (congrFun (read_writes_unit_full v _ off inb hoff w L) y)

/-! ## The body's branch condition -/

/-- The condition of the body's conditional (the accumulator's reset), from the grid coordinates: both are zero. -/
abbrev resetCond (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first point only: decided over the 64 points of the grid. -/
theorem resetCond_iff : ∀ t : Fin cfg0.N, resetCond (grid0.coords t) ↔ t.val % 64 = 0 :=
  (by decide +kernel : ∀ t : Fin grid0.N, resetCond (grid0.coords t) ↔ t.val % 64 = 0)

/-- What the body's one accumulating store writes at coordinates `i`, over the four input blocks and what the accumulator held. -/
abbrev tileSum (i : grid0.Coords) (x0 x1 : Vec F S1024x3 .f32) (x2 x3 : Vec F S1024x1024 .f32) (acc : Vec F S1x1 .f32) : Vec F S1x1 .f32 :=
  k0_pay1 (k0_pay3 x0 x1) (Scalar.muli (BitVec.ofNat 32 (i 1).val) 1024#32) (k0_pay4 i)
    (iota .tc S1024x1024 32 [1] iota_S1024x1024_d1_w32) x2 x3 acc

/-! ## The run where the reset is taken -/

set_option maxHeartbeats 1000000 in
/-- The body where the reset is taken: the accumulator, found at anything, is left at the tile's sum over the reset value. -/
theorem bodyRun_first (c : Dev nD) (i : grid0.Coords)
    (arg2 : Memref sig .tc .vmem S1024x3 .f32) (harg2 : arg2.IsWhole) (arg3 : Memref sig .tc .vmem S1024x3 .f32) (harg3 : arg3.IsWhole)
    (arg4 : Memref sig .tc .vmem S1024x1024 .f32) (harg4 : arg4.IsWhole) (arg5 : Memref sig .tc .vmem S1024x1024 .f32) (harg5 : arg5.IsWhole)
    (arg6 : Memref sig .tc .vmem S1x1 .f32) (harg6 : arg6.IsWhole) (hc : resetCond i)
    (x0 x1 : Vec F S1024x3 .f32) (x2 x3 : Vec F S1024x1024 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3
            ∗ owns (c : Thread nD τ) arg6 fullShare (tileSum i x0 x1 x2 x3 (k0_pay2 (F := F)))) -∗ K ⟨⟩))
      ⊢ wp frame (wpE (defs₀ (F := F)) Variants.none c none) E (cc0__lj_kernel i arg2 harg2 arg3 harg3 arg4 harg4 arg5 harg5 arg6 harg6) K := by
  simp only [cc0__lj_kernel_eq_skeleton]; unfold cc0__lj_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg2.eq_unread hf0; obtain rfl := harg3.eq_unread hf1; obtain rfl := harg4.eq_unread hf2
  obtain rfl := harg5.eq_unread hf3
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact H4
  ipureintro
  refine (read_writes_unit_full arg6.view _ _ _ (by decide) _ _).trans ?_
  have e0 := readAt_unit_full_unread harg2 x0 ![0, 0] inb_S1024x3_S1024x3_0_0 (by decide)
  have e1 := readAt_unit_full_unread harg3 x1 ![0, 0] inb_S1024x3_S1024x3_0_0 (by decide)
  have e2 := readAt_unit_full_unread harg4 x2 ![0, 0] inb_S1024x1024_S1024x1024_0_0 (by decide)
  have e3 := readAt_unit_full_unread harg5 x3 ![0, 0] inb_S1024x1024_S1024x1024_0_0 (by decide)
  have e4 := readCov_unit_full (Val := Elt F) arg6.view ![0, 0] inb_S1x1_S1x1_0_0 (by decide) ![0, 0] inb_S1x1_S1x1_0_0 (by decide) (k0_pay2 (F := F)) []
  sl_unfold_run_names
  dsimp only
  have key : ∀ (a0 a1 : Vec F S1024x3 .f32) (a2 a3 : Vec F S1024x1024 .f32) (a4 : Vec F S1x1 .f32), a0 = x0 → a1 = x1 → a2 = x2 → a3 = x3 →
      a4 = k0_pay2 (F := F) → tileSum i a0 a1 a2 a3 a4 = tileSum i x0 x1 x2 x3 (k0_pay2 (F := F)) := by
    intro a0 a1 a2 a3 a4 h0 h1 h2 h3 h4; subst h0 h1 h2 h3 h4; rfl
  exact key _ _ _ _ _ e0 e1 e2 e3 e4

end Cert.KernelIdeal.Hand

end
-- ==== Proof.KI.BodyRunB.lean ====
/-
  The kernel body at a point where the accumulator is carried (some grid coordinate nonzero).

  On whole staging buffers, the four inputs at their contents and the accumulator at what it held, the body runs to the
  continuation with the inputs as they were and the accumulator at the tile's sum added to what it held: the one store
  covers the accumulator.
-/
import proofs.«179323_j33148557590854_1_alg».proof.Proof.KI.BodyRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- The body where the reset is not taken: the accumulator, found at `acc`, is left at the tile's sum over `acc`. -/
theorem bodyRun_later (c : Dev nD) (i : grid0.Coords)
    (arg2 : Memref sig .tc .vmem S1024x3 .f32) (harg2 : arg2.IsWhole) (arg3 : Memref sig .tc .vmem S1024x3 .f32) (harg3 : arg3.IsWhole)
    (arg4 : Memref sig .tc .vmem S1024x1024 .f32) (harg4 : arg4.IsWhole) (arg5 : Memref sig .tc .vmem S1024x1024 .f32) (harg5 : arg5.IsWhole)
    (arg6 : Memref sig .tc .vmem S1x1 .f32) (harg6 : arg6.IsWhole) (hc : ¬resetCond i)
    (x0 x1 : Vec F S1024x3 .f32) (x2 x3 : Vec F S1024x1024 .f32) (acc : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare acc
        ∗ (iprop(owns (c : Thread nD τ) arg2 fullShare x0 ∗ owns (c : Thread nD τ) arg3 fullShare x1 ∗ owns (c : Thread nD τ) arg4 fullShare x2
            ∗ owns (c : Thread nD τ) arg5 fullShare x3
            ∗ owns (c : Thread nD τ) arg6 fullShare (tileSum i x0 x1 x2 x3 acc)) -∗ K ⟨⟩))
      ⊢ wp frame (wpE (defs₀ (F := F)) Variants.none c none) E (cc0__lj_kernel i arg2 harg2 arg3 harg3 arg4 harg4 arg5 harg5 arg6 harg6) K := by
  simp only [cc0__lj_kernel_eq_skeleton]; unfold cc0__lj_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact H4
  ipureintro
  refine (read_writes_unit_full arg6.view _ _ _ (by decide) _ _).trans ?_
  have e0 := readAt_unit_full_unread harg2 x0 ![0, 0] inb_S1024x3_S1024x3_0_0 (by decide)
  have e1 := readAt_unit_full_unread harg3 x1 ![0, 0] inb_S1024x3_S1024x3_0_0 (by decide)
  have e2 := readAt_unit_full_unread harg4 x2 ![0, 0] inb_S1024x1024_S1024x1024_0_0 (by decide)
  have e3 := readAt_unit_full_unread harg5 x3 ![0, 0] inb_S1024x1024_S1024x1024_0_0 (by decide)
  have e4 := readAt_unit_full_unread harg6 acc ![0, 0] inb_S1x1_S1x1_0_0 (by decide)
  sl_unfold_run_names
  dsimp only
  have key : ∀ (a0 a1 : Vec F S1024x3 .f32) (a2 a3 : Vec F S1024x1024 .f32) (a4 : Vec F S1x1 .f32), a0 = x0 → a1 = x1 → a2 = x2 → a3 = x3 →
      a4 = acc → tileSum i a0 a1 a2 a3 a4 = tileSum i x0 x1 x2 x3 acc := by
    intro a0 a1 a2 a3 a4 h0 h1 h2 h3 h4; subst h0 h1 h2 h3 h4; rfl
  exact key _ _ _ _ _ e0 e1 e2 e3 e4

end Cert.KernelIdeal.Hand

end
-- ==== Proof.KI.Body.lean ====
/-
  The kernel body's obligation to the pipeline.

  At every point of the 8×8 grid the four input windows' current staging buffers hold their blocks of the arrays as the
  region finds them. The output window is one [1,1] accumulator resident over the whole grid: at the first point the
  body resets it and adds the tile's sum; at every later point the buffer still holds what the body left at the point
  before (it is written back at the last point only) and the body adds the tile's sum to that. So after the body at each
  point the accumulator holds the recursion of the proof data, and the inputs are as they were.
-/
import proofs.«179323_j33148557590854_1_alg».proof.Proof.KI.BodyRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The staging buffers the body is called with -/

/-- Each window's current staging memref at point `t`, as the pipeline passes it to the body, and its wholeness. -/
abbrev ms0 (t : Fin cfg0.N) : Memref sig .tc .vmem S1024x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)

/-! ## What the body finds in each buffer -/

/-- Each input's current staging buffer holds its block at every point, fetched there or not: unfetched, the block
    index has not moved and the body left the block in place. -/
theorem before_in0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before_in1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before_in2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before_in3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

/-- At a point after the first the accumulator's buffer holds what the body left at the point before: it is written
    back at the last point only, so never between two points of the grid. -/
theorem before_acc (c : Dev nD) (t : Fin cfg0.N) (h0 : ¬t.val % 64 = 0) (d) :
    (dats m 0 c).before 4 t d = outsAt m c (t.val - 1) (Nat.lt_of_le_of_lt (Nat.sub_le _ _) t.isLt) := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    (fun _ => rfl) (fun _ _ => rfl)]
  dsimp only [dats]

/-! ## What the accumulator holds after each point, by the point's case -/

/-- The accumulator's step at a point is the tile's sum at the point's coordinates and blocks. -/
theorem stepOut_eq (c : Dev nD) (t : Fin cfg0.N) (prev : Vec F S1x1 .f32) :
    stepOut m c t prev = tileSum (grid0.coords t) (iblk m c 0 t) (iblk m c 1 t) (iblk m c 2 t) (iblk m c 3 t) prev := rfl

/-- At the first point: the tile's sum over the reset value. -/
theorem outsAt_first (c : Dev nD) (t : Fin cfg0.N) (h0 : t.val % 64 = 0) :
    outsAt m c t.val t.isLt = tileSum (grid0.coords t) (iblk m c 0 t) (iblk m c 1 t) (iblk m c 2 t) (iblk m c 3 t) (k0_pay2 (F := F)) := by
  have hN : t.val < 64 := lt_of_lt_of_eq t.isLt (show cfg0.N = 64 from N_0)
  obtain ⟨n, hn⟩ := t
  cases n with
  | zero => exact rfl
  | succ n => exact absurd h0 (by dsimp only at hN ⊢; omega)

/-- At a later point: the tile's sum over what the point before left. -/
theorem outsAt_later (c : Dev nD) (t : Fin cfg0.N) (h0 : ¬t.val % 64 = 0) :
    outsAt m c t.val t.isLt = tileSum (grid0.coords t) (iblk m c 0 t) (iblk m c 1 t) (iblk m c 2 t) (iblk m c 3 t)
      (outsAt m c (t.val - 1) (Nat.lt_of_le_of_lt (Nat.sub_le _ _) t.isLt)) := by
  obtain ⟨n, hn⟩ := t
  cases n with
  | zero => exact absurd (Nat.zero_mod _) h0
  | succ n => exact rfl

/-! ## The body obligation, at a generic point -/

/-- What the body is called with at point `t`: the invariant, what the core owes, and the five windows' current buffers, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 800000 in
/-- The body at any point: the inputs' buffers hold their blocks; at the first point the reset is taken and the
    accumulator, found at anything, is left at the tile's sum over the reset value; at a later point it holds what the
    point before left and is left at the tile's sum over that. The invariant passes through unread; the core owes
    nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3]
  rw [show (dats m 0 c).Φ t.succ = (dats m 0 c).Φ t.castSucc from rfl,
    show (dats m 0 c).owesAt () t.succ = (dats m 0 c).owesAt () t.castSucc from rfl,
    after0_0, after0_1, after0_2, after0_3, after0_4]
  by_cases h0 : t.val % 64 = 0
  · rw [outsAt_first m c t h0]
    iintro ⟨HΦ, Ho, ⟨%d0, H0⟩, ⟨%d1, H1⟩, ⟨%d2, H2⟩, ⟨%d3, H3⟩, ⟨%d4, H4⟩⟩
    iapply (bodyRun_first c (grid0.coords t) _ _ _ _ _ _ _ _ _ _ ((resetCond_iff t).mpr h0)
      (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [outsAt_later m c t h0]
    simp only [before_acc m c t h0]
    iintro ⟨HΦ, Ho, ⟨%d0, H0⟩, ⟨%d1, H1⟩, ⟨%d2, H2⟩, ⟨%d3, H3⟩, ⟨%d4, H4⟩⟩
    iapply (bodyRun_later c (grid0.coords t) _ _ _ _ _ _ _ _ _ _ (fun h => h0 ((resetCond_iff t).mp h))
      (iblk m c 0 t) (iblk m c 1 t) (iblk m c 2 t) (iblk m c 3 t) _ Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.LibColumn.lean ====
/-
  Column forms of two layout operations, read at an index.

  A vector of length `a` viewed as an `[a, 1]` column by a shape cast reads, at `(p, 0)`, the vector at `p`, and the column
  viewed back as a vector reads, at `p`, the column at `(p, 0)`; an `[a, 1]` column broadcast along its unit axis to `[a, b]`
  reads, at `(p, q)`, the column at `(p, 0)`. Together they are what a sum along the last axis that keeps the axis (a row
  sum stored as a column, then spread over the row) reads at an index.
-/
import Idealize.ShloMosaic.Lib.Pipeline.Value
import Idealize.ShloMosaic.Lib.ValueIdx

namespace Cert.Lib.Column

open Idealize.ShloMosaic Idealize.ShloMosaic.ValueIdx

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column cast to `[a]` reads, at `p`, the column's entry of row `p`. -/
theorem shapeCast_a1_a_apply {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- An `[a, 1]` column broadcast to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.Lib.Column
-- ==== Proof.LibAxisReads.lean ====
/-
  Reductions of a matrix along one axis, and a product with a transposed right operand, read at an index at the
  ideal values.

  For an `[a, b]` matrix of extended reals: the sum down the rows at column `q` is `∑ k, x (k, q)`, the sum along a row
  `p` is `∑ k, x (p, k)`, and the maximum down the rows at column `q` is the fold of `max` from `-∞` over `k ↦ x (k, q)`.
  For dimension numbers that contract the second axis of an `[M, K]` left operand against the second axis of an
  `[N, K]` right operand (stated as four coordinate facts a literal record proves by unfolding), entry `(p, c)` of the
  product into a zero accumulator is `∑ k, X (p, k) · W (c, k)`. General in every extent; each accumulator
  hypothesis is an equation between two copies of one word (zero for a sum, `-∞` for a maximum).
-/
import Idealize.ShloMosaic.Lib.ValueIdx
import Idealize.ShloMosaic.PureOps.Ideal.Laws

noncomputable section

namespace Cert.Lib.AxisReads

open Idealize.ShloMosaic Idealize.ShloMosaic.ValueIdx

variable {a b : ℕ}

/-- Column `q` with row `k` put back is `(k, q)`. -/
theorem lift_axis0 (h : (⟨2, ![a, b]⟩ : Shape).Reduces [0] ⟨1, ![b]⟩) (q : Fin b)
    (k : Fin ((⟨2, ![a, b]⟩ : Shape).size 0)) : h.lift (ix1 q) k = ix2 (⟨k.val, k.isLt⟩ : Fin a) q := by
  funext c; apply Fin.ext
  fin_cases c <;> rfl

/-- Row `p` with column `k` put back is `(p, k)`. -/
theorem lift_axis1 (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext c; apply Fin.ext
  fin_cases c <;> rfl

/-- The sum down the rows, at column `q`. -/
theorem sum_axis0 (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (q : Fin b) :
    multiReduction .add [0] ⟨1, ![b]⟩ src 0x00000000#32 h hφ hacc (ix1 q) = ∑ k : Fin a, src (ix2 k q) := by
  refine (Ideal.multiReduction_add_single src 0x00000000#32 h hφ hacc (ix1 q)).trans ?_
  exact Finset.sum_congr rfl fun k _ => congrArg src (lift_axis0 h q k)

/-- The sum along row `p`. -/
theorem sum_axis1 (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_axis1 h p k)

/-- The maximum down the rows, at column `q`: the fold of `max` from `-∞`. -/
theorem max_axis0 (src : FVec Ideal ⟨2, ![a, b]⟩ .f32) (h : (⟨2, ![a, b]⟩ : Shape).Reduces [0] ⟨1, ![b]⟩)
    (hφ : FKind.Formats .f32) (hacc : (0xFF800000#32 : BitVec 32) = 0xFF800000#32) (q : Fin b) :
    multiReduction .maximumf [0] ⟨1, ![b]⟩ src 0xFF800000#32 h hφ hacc (ix1 q)
      = (Finset.univ : Finset (Fin a)).fold max (Ideal.ofBits .f32 0xFF800000#32) (fun k => src (ix2 k q)) := by
  refine (Ideal.multiReduction_maximumf_single src 0xFF800000#32 h hφ hacc (ix1 q)).trans ?_
  exact congrArg (fun f => Finset.fold max (Ideal.ofBits .f32 0xFF800000#32) f (Finset.univ : Finset (Fin a)))
    (funext fun k => congrArg src (lift_axis0 h q k))

/-- For dimension numbers contracting both operands' second axes (the four coordinate facts say so), entry `(p, c)`
    of the product into a zero accumulator is `∑ k, X (p, k) · W (c, k)`. -/
theorem matmul_rowrow {M K N : Nat} {φ₁ φ₂ : FTy}
    (D : DotDims ⟨2, ![M, K]⟩ ⟨2, ![N, K]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (X : FVec Ideal ⟨2, ![M, K]⟩ φ₁) (W : FVec Ideal ⟨2, ![N, K]⟩ φ₂) (p : Fin M) (c : Fin N) :
    matmul D none X W (constant ⟨2, ![M, N]⟩ .f32 0x00000000#32) (ix2 p c)
      = ∑ k : Fin K, X (ix2 p k) * W (ix2 c k) := by
  refine (Ideal.matmul_constant_zero_apply D none X W (ix2 p c)).trans ?_
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 c k := funext fun a => Fin.ext (by
    match a with
    | ⟨0, _⟩ => exact hr0 _ _
    | ⟨1, _⟩ => exact (hr1 _ _).trans hk)
  rw [el, er]

end Cert.Lib.AxisReads

end
-- ==== Proof.TileReads.lean ====
/-
  The tile's layout operations read at an index, at the ideal values.

  Four readings, general in the extents. For an `[a, k]` block x: the row sums of squares, kept as a column and spread
  over the row, read ∑ⱼ x(p, j)² at (p, q); the same sums of a block y turned into a row and spread down the columns read
  ∑ⱼ y(q, j)² at (p, q); the product of x with the transpose of y into a zero accumulator reads ∑ⱼ x(p, j)·y(q, j) at
  (p, q). And for an `[a, b]` tile w: the sum over the two tile axes of w viewed `[1, a, b]`, taken out as a scalar and
  added to a resident `[1, 1]` value, is that value's one entry plus ∑ₚ ∑_q w(p, q).
-/
import Idealize.ShloMosaic.Lib.ValueLayout
import proofs.«179323_j33148557590854_1_alg».proof.Proof.LibColumn
import proofs.«179323_j33148557590854_1_alg».proof.Proof.LibAxisReads

noncomputable section

open scoped BigOperators

namespace Cert.TileValue

open Idealize.ShloMosaic Idealize.ShloMosaic.ValueIdx Cert.Lib.Column Cert.Lib.AxisReads

/-- Row p's sum of squares, kept as a column and broadcast along the row: ∑ⱼ x(p, j)² at every (p, q). -/
theorem rowSq_read {a b k : ℕ} (x : FVec Ideal ⟨2, ![a, k]⟩ .f32)
    (hred : (⟨2, ![a, k]⟩ : Shape).Reduces [1] ⟨1, ![a]⟩) (hφ : FKind.Formats .f32)
    (hacc : (0x00000000#32 : BitVec 32) = 0x00000000#32)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩
        (shapeCast ⟨2, ![a, 1]⟩ (multiReduction .add [1] ⟨1, ![a]⟩ (mulf x x) 0x00000000#32 hred hφ hacc) hc) hb (ix2 p q)
      = ∑ j : Fin k, x (ix2 p j) * x (ix2 p j) :=
  (broadcastTo_a1_ab_apply _ hb p q).trans
    ((shapeCast_a_a1_apply _ hc p (0 : Fin 1)).trans (sum_axis1 (mulf x x) hred hφ hacc p))

/-- Row q's sum of squares of y, kept as a column, transposed to a row and broadcast down the columns: ∑ⱼ y(q, j)² at
    every (p, q). -/
theorem colSq_read {a b k : ℕ} (y : FVec Ideal ⟨2, ![b, k]⟩ .f32)
    (hred : (⟨2, ![b, k]⟩ : Shape).Reduces [1] ⟨1, ![b]⟩) (hφ : FKind.Formats .f32)
    (hacc : (0x00000000#32 : BitVec 32) = 0x00000000#32)
    (hc : (⟨1, ![b]⟩ : Shape).ShapeCasts ⟨2, ![b, 1]⟩) (ht : (⟨2, ![b, 1]⟩ : Shape).Transposes [1, 0] ⟨2, ![1, b]⟩)
    (hb : (⟨2, ![1, b]⟩ : Shape).Broadcasts ⟨2, ![a, b]⟩) (p : Fin a) (q : Fin b) :
    broadcastTo ⟨2, ![a, b]⟩
        (transpose ⟨2, ![1, b]⟩ [1, 0]
          (shapeCast ⟨2, ![b, 1]⟩ (multiReduction .add [1] ⟨1, ![b]⟩ (mulf y y) 0x00000000#32 hred hφ hacc) hc) ht) hb (ix2 p q)
      = ∑ j : Fin k, y (ix2 q j) * y (ix2 q j) :=
  (broadcastTo_1b_ab_apply _ hb p q).trans
    ((transpose_ix2_apply _ ht (0 : Fin 1) q).trans
      ((shapeCast_a_a1_apply _ hc q (0 : Fin 1)).trans (sum_axis1 (mulf y y) hred hφ hacc q)))

/-- For dimension numbers contracting the left operand's second axis against the right operand's first (the four
    coordinate facts say so), entry (p, c) of the product into a zero accumulator is ∑ₖ X(p, k)·W(k, c). -/
theorem matmul_rowcol {M K N : Nat} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (X : FVec Ideal ⟨2, ![M, K]⟩ φ₁) (W : FVec Ideal ⟨2, ![K, N]⟩ φ₂) (p : Fin M) (c : Fin N) :
    matmul D prec X W (constant ⟨2, ![M, N]⟩ .f32 0x00000000#32) (ix2 p c)
      = ∑ k : Fin K, X (ix2 p k) * W (ix2 k c) := by
  refine (Ideal.matmul_constant_zero_apply D prec X W (ix2 p c)).trans ?_
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

/-- The product of x with the transpose of y: ∑ⱼ x(p, j)·y(q, j) at (p, q). -/
theorem dotT_read {M K N : Nat} (D : DotDims ⟨2, ![M, K]⟩ ⟨2, ![K, N]⟩ ⟨2, ![M, N]⟩) (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (x : FVec Ideal ⟨2, ![M, K]⟩ .f32) (y : FVec Ideal ⟨2, ![N, K]⟩ .f32)
    (ht : (⟨2, ![N, K]⟩ : Shape).Transposes [1, 0] ⟨2, ![K, N]⟩) (p : Fin M) (q : Fin N) :
    matmul D prec x (transpose ⟨2, ![K, N]⟩ [1, 0] y ht) (constant ⟨2, ![M, N]⟩ .f32 0x00000000#32) (ix2 p q)
      = ∑ j : Fin K, x (ix2 p j) * y (ix2 q j) :=
  (matmul_rowcol D prec hr hs hl0 hl1 hr0 hr1 x _ p q).trans
    (Finset.sum_congr rfl fun j _ => congrArg (x (ix2 p j) * ·) (transpose_ix2_apply y ht j q))

/-- The one index of a `[1, 1]` value. -/
theorem idx11 (j : (⟨2, ![1, 1]⟩ : Shape).Idx) : j = ix2 (0 : Fin 1) (0 : Fin 1) := by
  funext d
  match d with
  | ⟨0, _⟩ => exact Fin.ext (by have := idx2_lt0 j; show (j 0).val = 0; omega)
  | ⟨1, _⟩ => exact Fin.ext (by have := idx2_lt1 j; show (j 1).val = 0; omega)

/-- The tile's total added to the resident value: the sum over both tile axes of w viewed `[1, a, b]`, cast to
    `[1, 1, 1]`, taken out at (0, 0, 0), spread over `[1, 1]` and added to `prev`, is `prev`'s entry plus ∑ₚ ∑_q w(p, q). -/
theorem tileTotal_read {a b : ℕ} (w : FVec Ideal ⟨2, ![a, b]⟩ .f32) (prev : FVec Ideal ⟨2, ![1, 1]⟩ .f32)
    (hc1 : (⟨2, ![1, 1]⟩ : Shape).ShapeCasts ⟨2, ![1, 1]⟩)
    (hc2 : (⟨2, ![a, b]⟩ : Shape).ShapeCasts ⟨3, ![1, a, b]⟩)
    (hred : (⟨3, ![1, a, b]⟩ : Shape).Reduces [1, 2] ⟨1, ![1]⟩) (hφ : FKind.Formats .f32)
    (hacc : (0x00000000#32 : BitVec 32) = 0x00000000#32)
    (hc3 : (⟨1, ![1]⟩ : Shape).ShapeCasts ⟨3, ![1, 1, 1]⟩)
    (hin : ∀ d, (![0, 0, 0] : Fin 3 → Nat) d < (⟨3, ![1, 1, 1]⟩ : Shape).size d) :
    addf (shapeCast ⟨2, ![1, 1]⟩ prev hc1)
        (broadcast ⟨2, ![1, 1]⟩
          (extractAt ![0, 0, 0]
            (shapeCast ⟨3, ![1, 1, 1]⟩
              (multiReduction .add [1, 2] ⟨1, ![1]⟩ (shapeCast ⟨3, ![1, a, b]⟩ w hc2) 0x00000000#32 hred hφ hacc) hc3) hin))
      = fun _ => prev (ix2 (0 : Fin 1) (0 : Fin 1)) + ∑ p : Fin a, ∑ q : Fin b, w (ix2 p q) := by
  funext j
  have h1 : shapeCast ⟨2, ![1, 1]⟩ prev hc1 j = prev (ix2 (0 : Fin 1) (0 : Fin 1)) := by
    rw [shapeCast_self]; exact congrArg prev (idx11 j)
  have hsize : ∀ d : Fin (⟨1, ![1]⟩ : Shape).rank, (⟨1, ![1]⟩ : Shape).size d = 1 := fun d => by
    match d with
    | ⟨0, _⟩ => rfl
  have h2 : ∀ i : (⟨1, ![1]⟩ : Shape).Idx,
      multiReduction .add [1, 2] ⟨1, ![1]⟩ (shapeCast ⟨3, ![1, a, b]⟩ w hc2) 0x00000000#32 hred hφ hacc i
        = ∑ p : Fin a, ∑ q : Fin b, w (ix2 p q) := fun i =>
    (Ideal.multiReduction_add_total (shapeCast ⟨3, ![1, a, b]⟩ w hc2) 0x00000000#32 hred hsize hφ hacc i).trans
      ((Equiv.sum_comp (Shape.reshapeEquiv hc2) w).trans (sum_idx2 w))
  show shapeCast ⟨2, ![1, 1]⟩ prev hc1 j + _ = _
  rw [h1]
  exact congrArg (prev (ix2 (0 : Fin 1) (0 : Fin 1)) + ·) (h2 _)

end Cert.TileValue

end
-- ==== Proof.LjSpec.lean ====
/-
  The pairwise energy both programs compute, stated once over the extended reals.

  For atom coordinates `x : [8192, 3]` and pair tables `eps, rmin : [8192, 8192]`:
  the squared distance of atoms r and c is |x_r|² + |x_c|² − 2·⟨x_r, x_c⟩ clamped below at 0; the distance is its
  square root where positive and 0 elsewhere, plus 1 on the diagonal; with ρ = rmin / dist the pair energy is
  eps · (ρ¹² − 2·ρ⁶), kept only strictly above the diagonal (r < c) and 0 elsewhere. The total is the sum over all
  pairs; a tile's share is the sum over one 1024 × 1024 block of pairs, and the total is the sum of the 64 shares.
-/
import Idealize.ShloMosaic.PureOps.Ideal
import Idealize.ShloMosaic.Lib.ValueIdx

noncomputable section

open scoped BigOperators

namespace Cert.LJ

open Idealize.ShloMosaic Idealize.ShloMosaic.ValueIdx

/-- The coordinate array's shape and the pair tables' shape. -/
abbrev SX : Shape := ⟨2, ![8192, 3]⟩
abbrev SM : Shape := ⟨2, ![8192, 8192]⟩

/-- The float literals 2 and 1, kept as their words. -/
def two : EReal := Ideal.ofBits .f32 0x40000000#32
def one : EReal := Ideal.ofBits .f32 0x3F800000#32

/-- |x_r|². -/
def sq (x : SX.Idx → EReal) (r : Fin 8192) : EReal := ∑ k : Fin 3, x (ix2 r k) * x (ix2 r k)
/-- ⟨x_r, x_c⟩. -/
def dot (x : SX.Idx → EReal) (r c : Fin 8192) : EReal := ∑ k : Fin 3, x (ix2 r k) * x (ix2 c k)
/-- The squared distance, clamped below at 0. -/
def d2 (x : SX.Idx → EReal) (r c : Fin 8192) : EReal := max ((sq x r + sq x c) - two * dot x r c) 0
/-- The distance where the squared distance is positive, 0 elsewhere; plus 1 on the diagonal. -/
def dist (x : SX.Idx → EReal) (r c : Fin 8192) : EReal :=
  (if 0 < d2 x r c then Ideal.sqrt (if 0 < d2 x r c then d2 x r c else one) else 0) + (if r = c then (1 : EReal) else 0)
/-- ρ² with ρ = rmin / dist. -/
def rho2 (x : SX.Idx → EReal) (rmin : SM.Idx → EReal) (r c : Fin 8192) : EReal :=
  Ideal.div (rmin (ix2 r c)) (dist x r c) * Ideal.div (rmin (ix2 r c)) (dist x r c)
/-- ρ⁶ = (ρ²·ρ²)·ρ². -/
def rho6 (x : SX.Idx → EReal) (rmin : SM.Idx → EReal) (r c : Fin 8192) : EReal :=
  (rho2 x rmin r c * rho2 x rmin r c) * rho2 x rmin r c
/-- eps·(ρ¹² − 2ρ⁶). -/
def pair (x : SX.Idx → EReal) (eps rmin : SM.Idx → EReal) (r c : Fin 8192) : EReal :=
  eps (ix2 r c) * (rho6 x rmin r c * rho6 x rmin r c - two * rho6 x rmin r c)
/-- The pair's contribution: kept strictly above the diagonal. -/
def term (x : SX.Idx → EReal) (eps rmin : SM.Idx → EReal) (r c : Fin 8192) : EReal :=
  if r.val < c.val then pair x eps rmin r c else 0
/-- The sum over all pairs. -/
def total (x : SX.Idx → EReal) (eps rmin : SM.Idx → EReal) : EReal := ∑ r : Fin 8192, ∑ c : Fin 8192, term x eps rmin r c

/-- Row `p` of row-tile `a`: the atom 1024·a + p. -/
def atom (a : Fin 8) (p : Fin 1024) : Fin 8192 := ⟨1024 * a.val + p.val, by omega⟩
/-- The share of tile (a, b): the sum over its 1024 × 1024 pairs. -/
def tileSum (x : SX.Idx → EReal) (eps rmin : SM.Idx → EReal) (a b : Fin 8) : EReal :=
  ∑ p : Fin 1024, ∑ q : Fin 1024, term x eps rmin (atom a p) (atom b q)

end Cert.LJ

end
-- ==== Proof.TileCell.lean ====
/-
  One pair's energy as the kernel's operations compute it at one element, and its reading on the extended reals.

  At one element of a tile the kernel has: the three sums |x_r|², |x_c|², ⟨x_r, x_c⟩; the two global atom numbers as
  32-bit words; and the pair tables' entries. From the sums it forms the clamped squared distance, a comparison with
  zero and two selections around a square root (`distCell`); from that, the words and the entries it forms the masked
  pair energy (`cell`): the diagonal indicator is the equality bit of the two words, widened and converted to a float,
  and the mask is their signed comparison. For atom numbers below 8192 the words do not wrap and are nonnegative read
  signed, so the equality bit is the indicator of r = c and the signed comparison is r < c; the two comparisons with
  zero are the order's. With these readings `cell` of `distCell` is the specification's `term`, by unfolding.
-/
import proofs.«179323_j33148557590854_1_alg».proof.Proof.LjSpec
import Idealize.ShloMosaic.Lib.Affine
import Idealize.ShloMosaic.PureOps.Ideal.Laws

noncomputable section

open scoped BigOperators

namespace Cert.TileValue

open Idealize.ShloMosaic Idealize.ShloMosaic.ValueIdx

/-- The distance off the diagonal from the three sums `sa` = |x_r|², `sb` = |x_c|², `dt` = ⟨x_r, x_c⟩: the squared
    distance clamped at zero, its square root where it is above zero (the root's argument replaced by 1 elsewhere),
    zero elsewhere. -/
def distCell (sa sb dt : EReal) : EReal :=
  Scalar.select
    (Ideal.cmp .ogt (max ((sa + sb) - Ideal.ofBits .f32 0x40000000#32 * dt) (Ideal.ofBits .f32 0x00000000#32))
      (Ideal.ofBits .f32 0x00000000#32))
    (Ideal.sqrt (Scalar.select
      (Ideal.cmp .ogt (max ((sa + sb) - Ideal.ofBits .f32 0x40000000#32 * dt) (Ideal.ofBits .f32 0x00000000#32))
        (Ideal.ofBits .f32 0x00000000#32))
      (max ((sa + sb) - Ideal.ofBits .f32 0x40000000#32 * dt) (Ideal.ofBits .f32 0x00000000#32))
      (Ideal.ofBits .f32 0x3F800000#32)))
    (Ideal.ofBits .f32 0x00000000#32)

/-- ρ⁶ for table entry `rmv` and distance `dd`: ρ = rmv / dd, ρ² = ρ·ρ, ρ⁶ = (ρ²·ρ²)·ρ². -/
def rho6Cell (rmv dd : EReal) : EReal :=
  ((Ideal.div rmv dd * Ideal.div rmv dd) * (Ideal.div rmv dd * Ideal.div rmv dd)) * (Ideal.div rmv dd * Ideal.div rmv dd)

/-- The masked pair energy at one element: `d` the distance off the diagonal, `rw` and `cw` the row's and the column's
    atom numbers as words, `ev` and `rmv` the entries of the two tables. -/
def cell (d : EReal) (rw cw : BitVec 32) (ev rmv : EReal) : EReal :=
  Scalar.select (IntOp.cmpi .slt rw cw)
    (ev * (rho6Cell rmv (d + FloatOps.sitofp (F := Ideal) .f32 ((IntOp.cmpi .eq rw cw).setWidth 32))
          * rho6Cell rmv (d + FloatOps.sitofp (F := Ideal) .f32 ((IntOp.cmpi .eq rw cw).setWidth 32))
        - Ideal.ofBits .f32 0x40000000#32
          * rho6Cell rmv (d + FloatOps.sitofp (F := Ideal) .f32 ((IntOp.cmpi .eq rw cw).setWidth 32))))
    (Ideal.ofBits .f32 0x00000000#32)

/-! ## The comparisons with zero -/

/-- A selection on "a is above b" is the `if` on `b < a`. -/
theorem select_ogt {α : Type} (a b : EReal) (u v : α) :
    Scalar.select (Ideal.cmp .ogt a b) u v = if b < a then u else v := by
  unfold Scalar.select Ideal.cmp
  by_cases h : b < a
  · rw [if_pos h]; simp [h]
  · rw [if_neg h]; simp [h]

/-- The distance off the diagonal, read on the extended reals. -/
theorem distCell_eq (sa sb dt : EReal) :
    distCell sa sb dt
      = if 0 < max ((sa + sb) - Cert.LJ.two * dt) 0
        then Ideal.sqrt (if 0 < max ((sa + sb) - Cert.LJ.two * dt) 0 then max ((sa + sb) - Cert.LJ.two * dt) 0 else Cert.LJ.one)
        else 0 := by
  unfold distCell
  rw [Ideal.ofBits_zero_f32]
  simp only [select_ogt]
  rfl

/-! ## The atom numbers as words -/

/-- Tile `a`'s row `p` as the kernel forms it, 1024·a as a product of words plus p, is the word of 1024·a + p. -/
theorem atom_word (a p : Nat) :
    IntOp.addi (Scalar.muli (BitVec.ofNat 32 a) 1024#32) (BitVec.ofNat 32 p) = BitVec.ofNat 32 (1024 * a + p) := by
  show BitVec.ofNat 32 a * BitVec.ofNat 32 1024 + BitVec.ofNat 32 p = _
  rw [← BitVec.ofNat_mul, ← BitVec.ofNat_add, Nat.mul_comm]

/-- Numbers below 8192 have distinct words. -/
theorem word_inj {n m : Nat} (hn : n < 8192) (hm : m < 8192) : BitVec.ofNat 32 n = BitVec.ofNat 32 m ↔ n = m := by
  constructor
  · intro h
    have h' := congrArg BitVec.toNat h
    simp only [BitVec.toNat_ofNat] at h'
    omega
  · rintro rfl; rfl

/-- A number below 8192 is its word read signed. -/
theorem word_toInt {n : Nat} (hn : n < 8192) : (BitVec.ofNat 32 n).toInt = (n : Int) := by
  rw [BitVec.toInt_eq_toNat_cond]
  simp only [BitVec.toNat_ofNat]
  have h1 : n % 2 ^ 32 = n := Nat.mod_eq_of_lt (by omega)
  rw [h1, if_pos (by omega)]

/-- The equality bit of two such words, widened and converted, is the indicator of equality. -/
theorem diag_word {n m : Nat} (hn : n < 8192) (hm : m < 8192) :
    FloatOps.sitofp (F := Ideal) .f32 ((IntOp.cmpi .eq (BitVec.ofNat 32 n) (BitVec.ofNat 32 m)).setWidth 32)
      = if n = m then (1 : EReal) else 0 := by
  by_cases h : n = m
  · subst h
    have e : IntOp.cmpi .eq (BitVec.ofNat 32 n) (BitVec.ofNat 32 n) = 1#1 := IntOp.cmpi_eq.mpr rfl
    rw [e, if_pos rfl]
    show ((((1#1 : BitVec 1).setWidth 32).toInt : ℝ) : EReal) = 1
    have e1 : ((1#1 : BitVec 1).setWidth 32).toInt = 1 := by decide
    rw [e1]; simp
  · have e : IntOp.cmpi .eq (BitVec.ofNat 32 n) (BitVec.ofNat 32 m) = 0#1 :=
      eq_zero_of_ne_one fun h1 => h ((word_inj hn hm).mp (IntOp.cmpi_eq.mp h1))
    rw [e, if_neg h]
    show ((((0#1 : BitVec 1).setWidth 32).toInt : ℝ) : EReal) = 0
    have e0 : ((0#1 : BitVec 1).setWidth 32).toInt = 0 := by decide
    rw [e0]; simp

/-- A selection on the signed comparison of two such words is the `if` on the numbers' order. -/
theorem mask_word {α : Type} {n m : Nat} (hn : n < 8192) (hm : m < 8192) (u v : α) :
    Scalar.select (IntOp.cmpi .slt (BitVec.ofNat 32 n) (BitVec.ofNat 32 m)) u v = if n < m then u else v := by
  have hiff : IntOp.cmpi .slt (BitVec.ofNat 32 n) (BitVec.ofNat 32 m) = 1#1 ↔ n < m := by
    rw [IntOp.cmpi_slt, word_toInt hn, word_toInt hm]; omega
  unfold Scalar.select
  exact if_congr hiff rfl rfl

/-! ## The element is the specification's term -/

/-- At atoms r and c, the masked pair energy formed from the three sums, the two atom numbers' words and the two
    table entries is the specification's term. -/
theorem cell_term (x : Cert.LJ.SX.Idx → EReal) (eps rmin : Cert.LJ.SM.Idx → EReal) (r c : Fin 8192) :
    cell (distCell (Cert.LJ.sq x r) (Cert.LJ.sq x c) (Cert.LJ.dot x r c)) (BitVec.ofNat 32 r.val) (BitVec.ofNat 32 c.val)
        (eps (ix2 r c)) (rmin (ix2 r c))
      = Cert.LJ.term x eps rmin r c := by
  unfold cell
  rw [mask_word r.isLt c.isLt, diag_word r.isLt c.isLt, distCell_eq, Ideal.ofBits_zero_f32]
  unfold Cert.LJ.term Cert.LJ.pair Cert.LJ.rho6 Cert.LJ.rho2 Cert.LJ.dist Cert.LJ.d2 rho6Cell
  have hrc : (r.val = c.val) = (r = c) := propext Fin.val_inj
  simp only [hrc]
  rfl

end Cert.TileValue

end
-- ==== Proof.TileTotal.lean ====
/-
  The sum over all pairs of atoms, regrouped by tiles.

  An atom r below 8192 is row r % 1024 of tile r / 1024, so the atoms are the pairs (tile, row) and a sum over the atoms
  is a double sum over tiles and rows. Applied to both atoms of a pair and with the two middle sums exchanged, the total
  is the sum over the 8 × 8 tiles of each tile's share. Only commutativity and associativity of the sum are used, so the
  statement holds at the infinities as well.
-/
import proofs.«179323_j33148557590854_1_alg».proof.Proof.LjSpec

open scoped BigOperators

namespace Cert.TileValue

open Cert.LJ

/-- The atoms are the pairs (tile, row within the tile): r ↦ (r / 1024, r % 1024), with inverse (a, p) ↦ 1024·a + p. -/
def atomEquiv : Fin 8 × Fin 1024 ≃ Fin 8192 where
  toFun ap := atom ap.1 ap.2
  invFun r := (⟨r.val / 1024, by omega⟩, ⟨r.val % 1024, by omega⟩)
  left_inv := by
    rintro ⟨a, p⟩
    refine Prod.ext (Fin.ext ?_) (Fin.ext ?_)
    · show (1024 * a.val + p.val) / 1024 = a.val
      omega
    · show (1024 * a.val + p.val) % 1024 = p.val
      omega
  right_inv := by
    intro r
    refine Fin.ext ?_
    show 1024 * (r.val / 1024) + r.val % 1024 = r.val
    omega

/-- A sum over the atoms is the double sum over the tiles and the rows of a tile. -/
theorem sum_atoms {M : Type*} [AddCommMonoid M] (f : Fin 8192 → M) :
    ∑ r : Fin 8192, f r = ∑ a : Fin 8, ∑ p : Fin 1024, f (atom a p) := by
  rw [← Equiv.sum_comp atomEquiv f, Fintype.sum_prod_type]
  rfl

/-- The total is the sum of the 64 tiles' shares. -/
theorem total_eq_tiles (x : Cert.LJ.SX.Idx → EReal) (eps rmin : Cert.LJ.SM.Idx → EReal) :
    Cert.LJ.total x eps rmin = ∑ a : Fin 8, ∑ b : Fin 8, Cert.LJ.tileSum x eps rmin a b := by
  unfold Cert.LJ.total Cert.LJ.tileSum
  rw [sum_atoms]
  refine Finset.sum_congr rfl fun a _ => ?_
  exact (Finset.sum_congr rfl fun p _ => sum_atoms (fun c => term x eps rmin (atom a p) c)).trans Finset.sum_comm

end Cert.TileValue
-- ==== Proof.TileValue.lean ====
/-
  One grid point of the kernel: what it adds to the resident scalar.

  At grid point (a, b) the kernel holds rows 1024·a… and 1024·b… of the coordinates and the (a, b) tiles of the two pair
  tables. Read at element (p, q) of the tile: the distance matrix is the distance off the diagonal of atoms r = 1024·a + p
  and c = 1024·b + q, formed from the three sums |x_r|², |x_c|², ⟨x_r, x_c⟩ (row sums of squares kept as a column, one of
  them turned into a row, and a product with a transposed block into a zero accumulator); the global row and column
  numbers are the words of r and c; so the masked pair energy at (p, q) is the specification's term at (r, c). The sum
  over both tile axes is then the tile's share, and the value stored is the loaded scalar plus that share. The value
  the scalar is reset to at the first point is zero.
-/
import proofs.«179323_j33148557590854_1_alg».proof.Proof.Gen.KernelIdeal.Skeleton
import proofs.«179323_j33148557590854_1_alg».proof.Proof.TileReads
import proofs.«179323_j33148557590854_1_alg».proof.Proof.TileCell
import proofs.«179323_j33148557590854_1_alg».proof.Proof.TileTotal

noncomputable section

open scoped BigOperators

namespace Cert.TileValue

open Cert.KernelIdeal Cert.KernelIdeal.Gen Idealize.ShloMosaic Idealize.ShloMosaic.ValueIdx

/-- The value the resident scalar is reset to is zero. -/
theorem reset_zero : k0_pay2 (F := Ideal) = fun _ => (0 : EReal) := by
  funext j
  unfold k0_pay2
  exact Ideal.ofBits_zero_f32

/-! ## The product's dimension numbers: which coordinate of each operand an output index and a contraction index name -/

theorem dot_lhs0 (i : S1024x1024.Idx) (q : dot_S1024x3_S3x1024_S1024x1024_1_0_0_1_n_n.contr.Idx) :
    (dot_S1024x3_S3x1024_S1024x1024_1_0_0_1_n_n.lhsIdx i q 0).val = (i 0).val := by
  unfold DotDims.lhsIdx
  rw [dif_neg (show ¬(0 : Fin S1024x3.rank) ∈ dot_S1024x3_S3x1024_S1024x1024_1_0_0_1_n_n.lhsBatch by decide),
    dif_pos (show (0 : Fin S1024x3.rank) ∈ dot_S1024x3_S3x1024_S1024x1024_1_0_0_1_n_n.lhsNonContracting by decide)]
  rfl
theorem dot_lhs1 (i : S1024x1024.Idx) (q : dot_S1024x3_S3x1024_S1024x1024_1_0_0_1_n_n.contr.Idx) :
    (dot_S1024x3_S3x1024_S1024x1024_1_0_0_1_n_n.lhsIdx i q 1).val = (q ⟨0, by decide⟩).val :=
  dot_S1024x3_S3x1024_S1024x1024_1_0_0_1_n_n.lhsIdx_val_of_single rfl i q
theorem dot_rhs0 (i : S1024x1024.Idx) (q : dot_S1024x3_S3x1024_S1024x1024_1_0_0_1_n_n.contr.Idx) :
    (dot_S1024x3_S3x1024_S1024x1024_1_0_0_1_n_n.rhsIdx i q 0).val = (q ⟨0, by decide⟩).val :=
  dot_S1024x3_S3x1024_S1024x1024_1_0_0_1_n_n.rhsIdx_val_of_single rfl i q
theorem dot_rhs1 (i : S1024x1024.Idx) (q : dot_S1024x3_S3x1024_S1024x1024_1_0_0_1_n_n.contr.Idx) :
    (dot_S1024x3_S3x1024_S1024x1024_1_0_0_1_n_n.rhsIdx i q 1).val = (i 1).val := by
  unfold DotDims.rhsIdx
  rw [dif_neg (show ¬(1 : Fin S3x1024.rank) ∈ dot_S1024x3_S3x1024_S1024x1024_1_0_0_1_n_n.rhsBatch by decide),
    dif_pos (show (1 : Fin S3x1024.rank) ∈ dot_S1024x3_S3x1024_S1024x1024_1_0_0_1_n_n.rhsNonContracting by decide)]
  rfl

/-! ## The distance matrix at an element -/

/-- Element (p, q) of the distance matrix of two coordinate blocks: the distance off the diagonal formed from the sums
    of squares of row p of the first block and row q of the second and from their inner product. -/
theorem dist_read (xi xj : FVec Ideal S1024x3 .f32) (p q : Fin 1024) :
    k0_pay3 (F := Ideal) xi xj (ix2 p q)
      = distCell (∑ k : Fin 3, xi (ix2 p k) * xi (ix2 p k)) (∑ k : Fin 3, xj (ix2 q k) * xj (ix2 q k))
          (∑ k : Fin 3, xi (ix2 p k) * xj (ix2 q k)) := by
  have e1 := rowSq_read (b := 1024) xi reduces_S1024x3_S1024 (.inl rfl) rfl shapeCasts_S1024_S1024x1
    broadcasts_S1024x1_S1024x1024 p q
  have e2 := colSq_read (a := 1024) xj reduces_S1024x3_S1024 (.inl rfl) rfl shapeCasts_S1024_S1024x1
    transposes_S1024x1_p1_0_S1x1024 broadcasts_S1x1024_S1024x1024 p q
  have e3 := dotT_read dot_S1024x3_S3x1024_S1024x1024_1_0_0_1_n_n (some .fp32) rfl rfl dot_lhs0 dot_lhs1 dot_rhs0 dot_rhs1
    xi xj transposes_S1024x3_p1_0_S3x1024 p q
  rw [← e1, ← e2, ← e3]
  rfl

/-! ## The global row and column numbers at an element -/

/-- The global row number at (p, q) of row-tile `i 0` is the word of 1024·(i 0) + p. -/
theorem row_word (i : grid0.Coords) (p q : Fin 1024) :
    k0_pay4 i (ix2 p q) = BitVec.ofNat 32 (1024 * (i 0).val + p.val) := by
  have e := iota_single_apply .tc S1024x1024 32 0 iota_S1024x1024_d0_w32 (ix2 p q)
  refine Eq.trans ?_ (atom_word (i 0).val p.val)
  show IntOp.addi _ (iota .tc S1024x1024 32 [0] iota_S1024x1024_d0_w32 (ix2 p q)) = _
  rw [e]
  rfl

/-- The global column number at (p, q) of column-tile `i 1` is the word of 1024·(i 1) + q. -/
theorem col_word (i : grid0.Coords) (p q : Fin 1024) :
    IntOp.addi (Scalar.muli (BitVec.ofNat 32 (i 1).val) 1024#32)
        (iota .tc S1024x1024 32 [1] iota_S1024x1024_d1_w32 (ix2 p q))
      = BitVec.ofNat 32 (1024 * (i 1).val + q.val) := by
  have e := iota_single_apply .tc S1024x1024 32 1 iota_S1024x1024_d1_w32 (ix2 p q)
  rw [e]
  exact atom_word (i 1).val q.val

/-! ## The stored value -/

/-- The stored value, for any distance matrix, row and column numbers, table tiles and loaded scalar: the loaded
    scalar's entry plus the sum over the tile of the masked pair energies. -/
theorem pay1_read (v32 : FVec Ideal S1024x1024 .f32) (v34 : BitVec 32) (v37 v38 : IVec S1024x1024 32)
    (e rm : Vec Ideal S1024x1024 .f32) (prev : Vec Ideal S1x1 .f32) :
    k0_pay1 (F := Ideal) v32 v34 v37 v38 e rm prev
      = fun _ => prev (ix2 (0 : Fin 1) (0 : Fin 1)) + ∑ p : Fin 1024, ∑ q : Fin 1024,
          cell (v32 (ix2 p q)) (v37 (ix2 p q)) (IntOp.addi v34 (v38 (ix2 p q))) (e (ix2 p q)) (rm (ix2 p q)) := by
  unfold k0_pay1
  refine (tileTotal_read _ prev shapeCasts_S1x1_S1x1 shapeCasts_S1024x1024_S1x1024x1024 reduces_S1x1024x1024_S1
    (.inl rfl) rfl shapeCasts_S1_S1x1x1 inpos_S1x1x1_p0_0_0).trans ?_
  rfl

/-- Grid point `i` stores the loaded scalar plus the share of tile (i 0, i 1). -/
theorem tile_step (x : Cert.LJ.SX.Idx → EReal) (eps rmin : Cert.LJ.SM.Idx → EReal) (i : grid0.Coords)
    (xi xj : Vec Ideal S1024x3 .f32) (e rm : Vec Ideal S1024x1024 .f32) (prev : Vec Ideal S1x1 .f32)
    (hxi : ∀ (p : Fin 1024) (k : Fin 3), xi (ix2 p k) = x (ix2 (Cert.LJ.atom (i 0) p) k))
    (hxj : ∀ (p : Fin 1024) (k : Fin 3), xj (ix2 p k) = x (ix2 (Cert.LJ.atom (i 1) p) k))
    (he : ∀ (p q : Fin 1024), e (ix2 p q) = eps (ix2 (Cert.LJ.atom (i 0) p) (Cert.LJ.atom (i 1) q)))
    (hrm : ∀ (p q : Fin 1024), rm (ix2 p q) = rmin (ix2 (Cert.LJ.atom (i 0) p) (Cert.LJ.atom (i 1) q))) :
    k0_pay1 (F := Ideal) (k0_pay3 xi xj) (Scalar.muli (BitVec.ofNat 32 (i 1).val) 1024#32) (k0_pay4 i)
        (iota .tc S1024x1024 32 [1] iota_S1024x1024_d1_w32) e rm prev
      = fun _ => prev (ix2 0 0) + Cert.LJ.tileSum x eps rmin (i 0) (i 1) := by
  refine (pay1_read _ _ _ _ e rm prev).trans ?_
  funext _
  refine congrArg (prev (ix2 (0 : Fin 1) (0 : Fin 1)) + ·) ?_
  unfold Cert.LJ.tileSum
  refine Finset.sum_congr rfl fun p _ => Finset.sum_congr rfl fun q _ => ?_
  have s1 : ∑ k : Fin 3, xi (ix2 p k) * xi (ix2 p k) = Cert.LJ.sq x (Cert.LJ.atom (i 0) p) :=
    Finset.sum_congr rfl fun k _ => by rw [hxi]
  have s2 : ∑ k : Fin 3, xj (ix2 q k) * xj (ix2 q k) = Cert.LJ.sq x (Cert.LJ.atom (i 1) q) :=
    Finset.sum_congr rfl fun k _ => by rw [hxj]
  have s3 : ∑ k : Fin 3, xi (ix2 p k) * xj (ix2 q k) = Cert.LJ.dot x (Cert.LJ.atom (i 0) p) (Cert.LJ.atom (i 1) q) :=
    Finset.sum_congr rfl fun k _ => by rw [hxi, hxj]
  rw [dist_read, row_word, col_word, he, hrm, s1, s2, s3]
  exact cell_term x eps rmin (Cert.LJ.atom (i 0) p) (Cert.LJ.atom (i 1) q)

end Cert.TileValue

end
-- ==== Proof.KI.Sum.lean ====
/-
  The resident scalar after the last grid point is the sum over all pairs.

  Point t of the 8 × 8 grid is tile (t / 8, t % 8). Its two coordinate blocks are rows 1024·(t / 8)… and 1024·(t % 8)… of
  the coordinate array, and its two table blocks are the (t / 8, t % 8) tiles of the two pair tables: an element of a
  block sits in the array at block index × block size + its coordinate inside the block. So the body at point t adds
  that tile's share to what the scalar held; the first point starts from the reset value, zero. By induction the scalar
  after point n is the sum of the shares of points 0 … n, after point 63 the sum over the 64 tiles in row-major order,
  which regrouped is the double sum over tiles, the total.
-/
import proofs.«179323_j33148557590854_1_alg».proof.Proof.KI.Data
import proofs.«179323_j33148557590854_1_alg».proof.Proof.TileValue

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-! ## The grid's points and the windows' block indices -/

/-- The printed index maps over the grid: point t is tile (t / 8, t % 8); the two coordinate windows are at block
    rows t / 8 and t % 8, the two table windows at block (t / 8, t % 8). -/
theorem idx_facts : ∀ t : Fin cfg0.N,
    (grid0.coords t 0).val = t.val / 8 ∧ (grid0.coords t 1).val = t.val % 8
    ∧ win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = t.val % 8
    ∧ win0_3.index t (0 : Fin 2) = t.val / 8 ∧ win0_3.index t (1 : Fin 2) = t.val % 8 :=
  (by decide +kernel : ∀ t : Fin grid0.N, _)

/-! ## Each block is a tile of its array -/

/-- The first coordinate block at point t: rows 1024·(t / 8)… of the coordinate array. -/
theorem blk0_apply (c : Dev nD) (t : Fin cfg0.N) (p : Fin 1024) (k : Fin 3) :
    (iblk m c 0 t : Vec Ideal S1024x3 .f32) (ix2 p k)
      = (V m c main_arg0 : Cert.LJ.SX.Idx → EReal) (ix2 (Cert.LJ.atom (grid0.coords t 0) p) k) := by
  obtain ⟨g0, g1, e00, e01, e10, e11, e20, e21, e30, e31⟩ := idx_facts t
  unfold iblk
  rw [View.read_apply]
  show V m c main_arg0 (((cfg0.win 0).blk t).view.emb (ix2 p k)) = V m c main_arg0 _
  refine congrArg (V m c main_arg0) (funext fun a => Fin.ext ?_)
  match a with
  | ⟨0, _⟩ =>
    show win0_0.index t (0 : Fin 2) * 1024 + 1 * p.val = 1024 * (grid0.coords t 0).val + p.val
    rw [e00, g0]; omega
  | ⟨1, _⟩ =>
    show win0_0.index t (1 : Fin 2) * 3 + 1 * k.val = k.val
    rw [e01]; omega

/-- The second coordinate block at point t: rows 1024·(t % 8)… of the coordinate array. -/
theorem blk1_apply (c : Dev nD) (t : Fin cfg0.N) (p : Fin 1024) (k : Fin 3) :
    (iblk m c 1 t : Vec Ideal S1024x3 .f32) (ix2 p k)
      = (V m c main_arg0 : Cert.LJ.SX.Idx → EReal) (ix2 (Cert.LJ.atom (grid0.coords t 1) p) k) := by
  obtain ⟨g0, g1, e00, e01, e10, e11, e20, e21, e30, e31⟩ := idx_facts t
  unfold iblk
  rw [View.read_apply]
  show V m c main_arg0 (((cfg0.win 1).blk t).view.emb (ix2 p k)) = V m c main_arg0 _
  refine congrArg (V m c main_arg0) (funext fun a => Fin.ext ?_)
  match a with
  | ⟨0, _⟩ =>
    show win0_1.index t (0 : Fin 2) * 1024 + 1 * p.val = 1024 * (grid0.coords t 1).val + p.val
    rw [e10, g1]; omega
  | ⟨1, _⟩ =>
    show win0_1.index t (1 : Fin 2) * 3 + 1 * k.val = k.val
    rw [e11]; omega

/-- The first table's block at point t: tile (t / 8, t % 8) of the table. -/
theorem blk2_apply (c : Dev nD) (t : Fin cfg0.N) (p q : Fin 1024) :
    (iblk m c 2 t : Vec Ideal S1024x1024 .f32) (ix2 p q)
      = (V m c main_arg4 : Cert.LJ.SM.Idx → EReal)
          (ix2 (Cert.LJ.atom (grid0.coords t 0) p) (Cert.LJ.atom (grid0.coords t 1) q)) := by
  obtain ⟨g0, g1, e00, e01, e10, e11, e20, e21, e30, e31⟩ := idx_facts t
  unfold iblk
  rw [View.read_apply]
  show V m c main_arg4 (((cfg0.win 2).blk t).view.emb (ix2 p q)) = V m c main_arg4 _
  refine congrArg (V m c main_arg4) (funext fun a => Fin.ext ?_)
  match a with
  | ⟨0, _⟩ =>
    show win0_2.index t (0 : Fin 2) * 1024 + 1 * p.val = 1024 * (grid0.coords t 0).val + p.val
    rw [e20, g0]; omega
  | ⟨1, _⟩ =>
    show win0_2.index t (1 : Fin 2) * 1024 + 1 * q.val = 1024 * (grid0.coords t 1).val + q.val
    rw [e21, g1]; omega

/-- The second table's block at point t: tile (t / 8, t % 8) of the table. -/
theorem blk3_apply (c : Dev nD) (t : Fin cfg0.N) (p q : Fin 1024) :
    (iblk m c 3 t : Vec Ideal S1024x1024 .f32) (ix2 p q)
      = (V m c main_arg5 : Cert.LJ.SM.Idx → EReal)
          (ix2 (Cert.LJ.atom (grid0.coords t 0) p) (Cert.LJ.atom (grid0.coords t 1) q)) := by
  obtain ⟨g0, g1, e00, e01, e10, e11, e20, e21, e30, e31⟩ := idx_facts t
  unfold iblk
  rw [View.read_apply]
  show V m c main_arg5 (((cfg0.win 3).blk t).view.emb (ix2 p q)) = V m c main_arg5 _
  refine congrArg (V m c main_arg5) (funext fun a => Fin.ext ?_)
  match a with
  | ⟨0, _⟩ =>
    show win0_3.index t (0 : Fin 2) * 1024 + 1 * p.val = 1024 * (grid0.coords t 0).val + p.val
    rw [e30, g0]; omega
  | ⟨1, _⟩ =>
    show win0_3.index t (1 : Fin 2) * 1024 + 1 * q.val = 1024 * (grid0.coords t 1).val + q.val
    rw [e31, g1]; omega

/-! ## One point adds its tile's share -/

/-- The body at point t leaves what the scalar held plus the share of tile (t / 8, t % 8). -/
theorem stepOut_sum (c : Dev nD) (t : Fin cfg0.N) (prev : Vec Ideal S1x1 .f32) :
    stepOut m c t prev
      = fun _ => prev (ix2 0 0)
          + Cert.LJ.tileSum (V m c main_arg0 : Cert.LJ.SX.Idx → EReal) (V m c main_arg4 : Cert.LJ.SM.Idx → EReal)
              (V m c main_arg5 : Cert.LJ.SM.Idx → EReal) (grid0.coords t 0) (grid0.coords t 1) := by
  unfold stepOut
  exact Cert.TileValue.tile_step (V m c main_arg0 : Cert.LJ.SX.Idx → EReal) (V m c main_arg4 : Cert.LJ.SM.Idx → EReal)
    (V m c main_arg5 : Cert.LJ.SM.Idx → EReal) (grid0.coords t) (iblk m c 0 t) (iblk m c 1 t) (iblk m c 2 t) (iblk m c 3 t) prev
    (blk0_apply m c t) (blk1_apply m c t) (blk2_apply m c t) (blk3_apply m c t)

/-! ## The points in order -/

/-- The row tile and the column tile of the point numbered t, for every natural number t. -/
def rowTile (t : ℕ) : Fin 8 := ⟨t / 8 % 8, Nat.mod_lt _ (by decide)⟩
def colTile (t : ℕ) : Fin 8 := ⟨t % 8, Nat.mod_lt _ (by decide)⟩

theorem coords_row (t : Fin cfg0.N) : (grid0.coords t 0 : Fin 8) = rowTile t.val := by
  have hN : t.val < 64 := lt_of_lt_of_eq t.isLt N_0
  refine Fin.ext ?_
  show (grid0.coords t 0).val = t.val / 8 % 8
  rw [(idx_facts t).1]; omega

theorem coords_col (t : Fin cfg0.N) : (grid0.coords t 1 : Fin 8) = colTile t.val :=
  Fin.ext (idx_facts t).2.1

/-- After point n the scalar is the sum of the shares of points 0 … n. -/
theorem outsAt_eq (c : Dev nD) : ∀ (n : ℕ) (hn : n < cfg0.N),
    outsAt m c n hn
      = fun _ => ∑ t ∈ Finset.range (n + 1),
          Cert.LJ.tileSum (V m c main_arg0 : Cert.LJ.SX.Idx → EReal) (V m c main_arg4 : Cert.LJ.SM.Idx → EReal)
            (V m c main_arg5 : Cert.LJ.SM.Idx → EReal) (rowTile t) (colTile t)
  | 0, hn => by
    rw [outsAt_zero, stepOut_sum, coords_row, coords_col]
    funext _
    have h0 : (k0_pay2 (F := Ideal)) (ix2 0 0) = 0 := congrFun Cert.TileValue.reset_zero _
    rw [h0, zero_add, Finset.sum_range_one]
  | n + 1, hn => by
    rw [outsAt_succ, stepOut_sum, coords_row, coords_col, outsAt_eq c n (Nat.lt_of_succ_lt hn)]
    funext _
    exact (Finset.sum_range_succ _ (n + 1)).symm

/-! ## The 64 points are the 8 × 8 tiles -/

/-- The tiles in row-major order: (a, b) ↦ 8·a + b. -/
def tileEquiv : Fin 8 × Fin 8 ≃ Fin 64 where
  toFun ab := ⟨8 * ab.1.val + ab.2.val, by omega⟩
  invFun t := (rowTile t.val, colTile t.val)
  left_inv := by
    rintro ⟨a, b⟩
    refine Prod.ext (Fin.ext ?_) (Fin.ext ?_)
    · show (8 * a.val + b.val) / 8 % 8 = a.val
      omega
    · show (8 * a.val + b.val) % 8 = b.val
      omega
  right_inv := by
    intro t
    refine Fin.ext ?_
    show 8 * (t.val / 8 % 8) + t.val % 8 = t.val
    omega

/-- A sum over the 64 points in order is the double sum over the tiles. -/
theorem sum_points {M : Type*} [AddCommMonoid M] (f : Fin 8 → Fin 8 → M) :
    ∑ t ∈ Finset.range 64, f (rowTile t) (colTile t) = ∑ a : Fin 8, ∑ b : Fin 8, f a b := by
  rw [Finset.sum_range fun t => f (rowTile t) (colTile t),
    ← Equiv.sum_comp tileEquiv fun t : Fin 64 => f (rowTile t.val) (colTile t.val), Fintype.sum_prod_type]
  refine Finset.sum_congr rfl fun a _ => Finset.sum_congr rfl fun b _ => ?_
  have e := tileEquiv.left_inv (a, b)
  have e1 : rowTile (tileEquiv (a, b)).val = a := congrArg Prod.fst e
  have e2 : colTile (tileEquiv (a, b)).val = b := congrArg Prod.snd e
  rw [e1, e2]

/-! ## The result -/

/-- The scalar after the last point, viewed as a rank-0 value, is the total over all pairs. -/
theorem acc_total (m : (ℓ : Loc nD τ sig) → Buf (Elt Ideal) ℓ) (c : Dev nD) :
    shapeCast S_ (outsAt (F := Ideal) m c 63 (by decide)) shapeCasts_S1x1_S_
      = fun _ => Cert.LJ.total (V m c main_arg0) (V m c main_arg4) (V m c main_arg5) := by
  rw [outsAt_eq m c 63 (by decide), sum_points, ← Cert.TileValue.total_eq_tiles]
  rfl

end Cert.KernelIdeal.Hand

end
-- ==== Proof.RefValueA.lean ====
/-
  Words and one-bit conditions met when the pair sum is read at an index.

  A row or column number below 8192 is a non-negative 32-bit signed integer, so the signed comparisons of two such
  words are the comparisons of the numbers; a one-bit word converted to a float is 1 or 0; a select on a decided
  bit is the `if` on the condition; a select on the float comparison "a > 0" is the `if` on 0 < a.
-/
import Idealize.ShloMosaic.PureOps.Ideal.Laws
import Idealize.ShloMosaic.Lib.ValueIdx

noncomputable section

namespace Cert.RefValue

open Idealize.ShloMosaic

/-- A number below 8192, as a 32-bit word read signed, is itself. -/
theorem toInt_small (n : Nat) (h : n < 8192) : (BitVec.ofNat 32 n).toInt = (n : Int) := by
  have h1 : (BitVec.ofNat 32 n).toNat = n := by
    rw [BitVec.toNat_ofNat]; exact Nat.mod_eq_of_lt (by omega)
  rw [BitVec.toInt_eq_toNat_of_lt (by rw [h1]; omega), h1]

/-- Signed "row + 0 ≥ column" on the words of two atom numbers is "column ≤ row". -/
theorem sge_word (r c : Fin 8192) :
    IntOp.cmpi .sge (IntOp.addi (BitVec.ofNat 32 r.val) 0#32) (BitVec.ofNat 32 c.val)
      = if c.val ≤ r.val then 1#1 else 0#1 := by
  have hr := r.isLt; have hc := c.isLt
  unfold IntOp.cmpi IntOp.addi
  simp only [BitVec.add_zero]
  have h : (BitVec.ofNat 32 c.val).sle (BitVec.ofNat 32 r.val) = decide (c.val ≤ r.val) := by
    rw [BitVec.sle_eq_decide, toInt_small _ hc, toInt_small _ hr]; simp
  rw [h]
  by_cases hh : c.val ≤ r.val <;> simp [hh]

/-- "row + 0 = column" on the words of two atom numbers is equality of the atoms. -/
theorem eq_word (r c : Fin 8192) :
    IntOp.cmpi .eq (IntOp.addi (BitVec.ofNat 32 r.val) 0#32) (BitVec.ofNat 32 c.val)
      = if r = c then 1#1 else 0#1 := by
  have hr := r.isLt; have hc := c.isLt
  unfold IntOp.cmpi IntOp.addi
  simp only [BitVec.add_zero]
  by_cases hh : r = c
  · subst hh; simp
  · have hne : ¬ (BitVec.ofNat 32 r.val = BitVec.ofNat 32 c.val) := by
      intro h
      have h' := congrArg BitVec.toNat h
      simp at h'
      apply hh; apply Fin.ext; omega
    have hb : (BitVec.ofNat 32 r.val == BitVec.ofNat 32 c.val) = false := by simp [hne]
    rw [hb, if_neg hh]; rfl

/-- A decided bit converted to a float is 1 where the condition holds and 0 elsewhere. -/
theorem uitofp_bit (p : Prop) [Decidable p] :
    FloatOps.uitofp (F := Ideal) .f32 (if p then 1#1 else 0#1) = if p then (1 : EReal) else 0 := by
  by_cases hh : p
  · rw [if_pos hh, if_pos hh]; show (((1#1 : BitVec 1).toNat : ℝ) : EReal) = 1; simp
  · rw [if_neg hh, if_neg hh]; show (((0#1 : BitVec 1).toNat : ℝ) : EReal) = 0; simp

/-- A select on a decided bit is the `if` on the condition. -/
theorem select_bit {α : Type} (p : Prop) [Decidable p] (u v : α) :
    Scalar.select (if p then 1#1 else 0#1) u v = if p then u else v := by
  by_cases hh : p
  · rw [if_pos hh, if_pos hh]; exact ValueIdx.select_one u v
  · rw [if_neg hh, if_neg hh]; exact ValueIdx.select_zero u v

/-- A select on the float comparison "a > 0" is the `if` on `0 < a`. -/
theorem select_pos {α : Type} (a : EReal) (u v : α) :
    Scalar.select (FloatOps.cmpf (F := Ideal) (φ := .f32) .ogt a (0 : EReal)) u v
      = if 0 < a then u else v := by
  rw [Ideal.cmpf_def]
  unfold Ideal.cmp Scalar.select
  by_cases h : 0 < a <;> simp [h]

end Cert.RefValue

end
-- ==== Proof.RefValueB.lean ====
/-
  The reference's squared distances, read at a pair of atoms.

  The row norms |x_r|² are a sum over the three coordinates started from the zero word; the squared distance of
  atoms r and c is |x_r|² + |x_c|² − 2·⟨x_r, x_c⟩ clamped below at 0, the inner product being the one contraction
  of the coordinate array with its transpose.
-/
import proofs.«179323_j33148557590854_1_alg».proof.Proof.Gen.ReferenceIdeal.Read
import proofs.«179323_j33148557590854_1_alg».proof.Proof.LjSpec
import proofs.«179323_j33148557590854_1_alg».proof.Proof.RefValueA

noncomputable section

namespace Cert.RefValue

open Cert.ReferenceIdeal Cert.ReferenceIdeal.Read Idealize.ShloMosaic Idealize.ShloMosaic.ValueIdx
open scoped BigOperators

/-! The composed index functions of the layout operations, at a pair (r, c). -/

theorem idx27 (r : Fin 8192) (k : Fin 3) : idx_main_v27 (ix1 r) k = ix2 r k :=
  funext fun a => Fin.ext (by match a with | ⟨0, _⟩ => rfl | ⟨1, _⟩ => rfl)
theorem idx30 (r c : Fin 8192) : idx_main_v28 (idx_main_v30 (ix2 r c)) = ix1 r :=
  funext fun a => Fin.ext (by match a with | ⟨0, _⟩ => rfl)
theorem idx31 (r c : Fin 8192) : idx_main_v29 (idx_main_v31 (ix2 r c)) = ix1 c :=
  funext fun a => Fin.ext (by match a with | ⟨0, _⟩ => rfl)
theorem lidx34 (r c : Fin 8192) (k : Fin 3) : lidx_main_v34 (ix2 r c) k = ix2 r k :=
  funext fun a => Fin.ext (by match a with | ⟨0, _⟩ => rfl | ⟨1, _⟩ => rfl)
theorem ridx34 (r c : Fin 8192) (k : Fin 3) : idx_main_v33 (ridx_main_v34 (ix2 r c) k) = ix2 c k :=
  funext fun a => Fin.ext (by match a with | ⟨0, _⟩ => rfl | ⟨1, _⟩ => rfl)

/-- The row norm of atom r. -/
theorem sq_at (x0 : (⟨S8192x3, .f32⟩ : BufTy).Contents (Elt Ideal)) (r : Fin 8192) :
    val_main_v27 (F := Ideal) x0 (ix1 r) = Cert.LJ.sq x0 r := by
  rw [val_main_v27_apply, val_main_cst_4_apply]
  simp only [val_main_v26_apply, Ideal.mulf_def, Ideal.ofBits_def, Ideal.ofBits_zero_f32, zero_add, idx27]
  rfl

/-- The inner product of atoms r and c. -/
theorem dot_at (x0 : (⟨S8192x3, .f32⟩ : BufTy).Contents (Elt Ideal)) (r c : Fin 8192) :
    val_main_v34 (F := Ideal) x0 (ix2 r c) = Cert.LJ.dot x0 r c := by
  rw [val_main_v34_apply]
  simp only [val_main_v33_apply, lidx34, ridx34]
  rfl

/-- The clamped squared distance of atoms r and c. -/
theorem d2_at (x0 : (⟨S8192x3, .f32⟩ : BufTy).Contents (Elt Ideal)) (r c : Fin 8192) :
    val_main_v39 (F := Ideal) x0 (ix2 r c) = Cert.LJ.d2 x0 r c := by
  rw [val_main_v39_apply, val_main_v37_apply, val_main_v32_apply, val_main_v30_apply, val_main_v28_apply,
    val_main_v31_apply, val_main_v29_apply, val_main_v36_apply, val_main_v35_apply, val_main_cst_5_apply,
    val_main_v38_apply, val_main_cst_6_apply, idx30, idx31, sq_at, sq_at, dot_at]
  simp only [Ideal.maximumf_def, Ideal.subf_def, Ideal.addf_def, Ideal.mulf_def, Ideal.ofBits_def,
    Ideal.ofBits_zero_f32]
  rfl

end Cert.RefValue

end
-- ==== Proof.RefValueC.lean ====
/-
  The reference's pair energies, read at a pair of atoms (r, c).

  The distance is the square root of the clamped squared distance where that is positive and 0 elsewhere, plus 1 on
  the diagonal (the diagonal indicator is a one-bit comparison of the row and column numbers, converted to a float).
  With ρ = rmin / dist the reference forms ρ² = ρ·ρ and ρ⁶ = ρ²·(ρ²·ρ²), which is (ρ²·ρ²)·ρ² by commutativity of
  the product of extended reals; the pair energy is eps·(ρ⁶·ρ⁶ − 2·ρ⁶). The upper-triangle mask keeps the energy
  where NOT (row ≥ column), that is where r < c, and puts the zero word elsewhere.
-/
import proofs.«179323_j33148557590854_1_alg».proof.Proof.RefValueB

noncomputable section

namespace Cert.RefValue

open Cert.ReferenceIdeal Cert.ReferenceIdeal.Read Idealize.ShloMosaic Idealize.ShloMosaic.ValueIdx
open scoped BigOperators

/-- The diagonal indicator: 1 where r = c, 0 elsewhere. -/
theorem eye_at (r c : Fin 8192) :
    val_main_v52 (F := Ideal) (ix2 r c) = if r = c then (1 : EReal) else 0 := by
  rw [val_main_v52_apply, val_main_v51_apply, val_main_v50_apply, val_main_v47_apply, val_main_v49_apply,
    val_main_c_11_apply, val_main_v48_apply]
  show FloatOps.uitofp (F := Ideal) .f32
    (IntOp.cmpi .eq (IntOp.addi (BitVec.ofNat 32 r.val) 0#32) (BitVec.ofNat 32 c.val)) = _
  rw [eq_word, uitofp_bit]

/-- The distance of atoms r and c, plus 1 on the diagonal. -/
theorem dist_at (x0 : (⟨S8192x3, .f32⟩ : BufTy).Contents (Elt Ideal)) (r c : Fin 8192) :
    val_main_v53 (F := Ideal) x0 (ix2 r c) = Cert.LJ.dist x0 r c := by
  rw [val_main_v53_apply, val_main_v46_apply, val_main_v41_apply, val_main_v40_apply, val_main_cst_7_apply,
    val_main_v45_apply, val_main_v44_apply, val_main_v43_apply, val_main_v42_apply, val_main_cst_8_apply,
    val_main_call0_v1_apply, val_main_call0_v0_apply, val_main_cst_9_apply,
    val_main_call1_v1_apply, val_main_call1_v0_apply, val_main_cst_10_apply, eye_at, d2_at]
  simp only [Ideal.ofBits_def, select_pos, Ideal.hostUnary_sqrt_def, Ideal.addf_def, Ideal.ofBits_zero_f32]
  rfl

/-- The pair energy eps·(ρ¹² − 2ρ⁶) of atoms r and c. -/
theorem pair_at (x0 : (⟨S8192x3, .f32⟩ : BufTy).Contents (Elt Ideal))
    (x4 x5 : (⟨S8192x8192, .f32⟩ : BufTy).Contents (Elt Ideal)) (r c : Fin 8192) :
    val_main_v62 (F := Ideal) x0 x4 x5 (ix2 r c) = Cert.LJ.pair x0 x4 x5 r c := by
  rw [val_main_v62_apply, val_main_v61_apply, val_main_v58_apply, val_main_v60_apply, val_main_v59_apply,
    val_main_cst_12_apply, val_main_v57_apply, val_main_v56_apply, val_main_v55_apply, val_main_v54_apply, dist_at]
  simp only [Ideal.mulf_def, Ideal.subf_def, Ideal.hostDivf_def, Ideal.ofBits_def]
  have h6 : ∀ ρ : EReal, ρ * (ρ * ρ) = (ρ * ρ) * ρ := fun ρ => mul_comm _ _
  rw [h6]
  rfl

/-- The masked pair energy: kept strictly above the diagonal. -/
theorem term_at (x0 : (⟨S8192x3, .f32⟩ : BufTy).Contents (Elt Ideal))
    (x4 x5 : (⟨S8192x8192, .f32⟩ : BufTy).Contents (Elt Ideal)) (r c : Fin 8192) :
    val_main_v63 (F := Ideal) x0 x4 x5 (ix2 r c) = Cert.LJ.term x0 x4 x5 r c := by
  rw [val_main_v63_apply, val_main_call2_v4_apply, val_main_call2_v2_apply, val_main_call2_v0_apply,
    val_main_call2_v1_apply, val_main_call2_c_apply, val_main_call2_v3_apply, val_main_call2_v5_apply,
    val_main_call2_cst_apply, pair_at]
  show Scalar.select (IntOp.cmpi .sge (IntOp.addi (BitVec.ofNat 32 r.val) 0#32) (BitVec.ofNat 32 c.val))
    (FloatOps.ofBits (F := Ideal) .f32 0x00000000#32) (Cert.LJ.pair x0 x4 x5 r c) = _
  rw [sge_word, select_bit, Ideal.ofBits_def, Ideal.ofBits_zero_f32]
  unfold Cert.LJ.term
  by_cases h : r.val < c.val
  · rw [if_pos h, if_neg (by omega)]
  · rw [if_neg h, if_pos (by omega)]

/-- The host sum of the masked pair energies over both axes, from the zero word, is the sum over all pairs. -/
theorem lj_total (x0 : (⟨S8192x3, .f32⟩ : BufTy).Contents (Elt Ideal))
    (x4 x5 : (⟨S8192x8192, .f32⟩ : BufTy).Contents (Elt Ideal)) (i : S_.Idx) :
    val_main_v64 (F := Ideal) x0 x4 x5 i = Cert.LJ.total x0 x4 x5 := by
  rw [val_main_v64_apply, val_main_cst_13_apply, Ideal.ofBits_def, Ideal.ofBits_zero_f32, zero_add, sum_idx2]
  unfold Cert.LJ.total
  exact Finset.sum_congr rfl fun r _ => Finset.sum_congr rfl fun c _ => term_at x0 x4 x5 r c

end Cert.RefValue

end
-- ==== Proof.RefValue.lean ====
/-
  The reference's result as a function of its arguments: the bond term plus the sum over all pairs.

  The reference's last operation adds two scalars. The first is the bond term, the composed term of its first 26
  operations (two gathers of the coordinate rows at the bonded atoms, their difference, its squared length, the square
  root, the harmonic energy kb·(|x_i − x_j| − b0)², summed over the bonds): it is kept here as that term, unopened. The
  second is the host sum, over both axes and from the zero word, of the masked pair energies, which at the pair (r, c)
  are the specification's contribution of that pair; so the second scalar is the specification's total.
-/
import proofs.«179323_j33148557590854_1_alg».proof.Proof.RefValueC

noncomputable section

namespace Cert.RefValue

open Cert.ReferenceIdeal Cert.ReferenceIdeal.Gen Idealize.ShloMosaic Idealize.ShloMosaic.TcCoe Idealize.SL.Sem Idealize.ShloMosaic.StableHlo

set_option maxRecDepth 8192 in
/-- The bond term as the reference computes it: the composed term of operations main_v0 … main_v25 of the argument arrays. -/
def refBond (m' : (ℓ : Loc Cert.ReferenceIdeal.nD Cert.ReferenceIdeal.τ Cert.ReferenceIdeal.sig) → Buf (Elt Ideal) ℓ)
    (c : Dev Cert.ReferenceIdeal.nD) : FVec Ideal Cert.ReferenceIdeal.S_ .f32 :=
  (Host.reduceAdd (mulf (m' ((c.tc : Thread nD τ).loc main_arg2)) (mulf (subf (Host.sqrt (Host.reduceAdd (mulf (subf (Host.gather gather_S8192x3_S8192x1_S8192x3_1_0_n_n_0_1_13 (m' ((c.tc : Thread nD τ).loc main_arg0)) (broadcastInDim S8192x1 ![0] bcast_S8192_S8192x1_0 (select (cmpi .slt (shapeCast _ (extractStridedSlice S8192x1 ![0, 0] (m' ((c.tc : Thread nD τ).loc main_arg1)) slices_S8192x2_S8192x1_0_0) shapeCasts_S8192x1_S8192) (broadcastInDim S8192 ![] bcast_S_S8192 (constantI S_ 32 0#32))) (addi (shapeCast _ (extractStridedSlice S8192x1 ![0, 0] (m' ((c.tc : Thread nD τ).loc main_arg1)) slices_S8192x2_S8192x1_0_0) shapeCasts_S8192x1_S8192) (broadcastInDim S8192 ![] bcast_S_S8192 (constantI S_ 32 8192#32))) (shapeCast _ (extractStridedSlice S8192x1 ![0, 0] (m' ((c.tc : Thread nD τ).loc main_arg1)) slices_S8192x2_S8192x1_0_0) shapeCasts_S8192x1_S8192)))) (Host.gather gather_S8192x3_S8192x1_S8192x3_1_0_n_n_0_1_13 (m' ((c.tc : Thread nD τ).loc main_arg0)) (broadcastInDim S8192x1 ![0] bcast_S8192_S8192x1_0 (select (cmpi .slt (shapeCast _ (extractStridedSlice S8192x1 ![0, 1] (m' ((c.tc : Thread nD τ).loc main_arg1)) slices_S8192x2_S8192x1_0_1) shapeCasts_S8192x1_S8192) (broadcastInDim S8192 ![] bcast_S_S8192 (constantI S_ 32 0#32))) (addi (shapeCast _ (extractStridedSlice S8192x1 ![0, 1] (m' ((c.tc : Thread nD τ).loc main_arg1)) slices_S8192x2_S8192x1_0_1) shapeCasts_S8192x1_S8192) (broadcastInDim S8192 ![] bcast_S_S8192 (constantI S_ 32 8192#32))) (shapeCast _ (extractStridedSlice S8192x1 ![0, 1] (m' ((c.tc : Thread nD τ).loc main_arg1)) slices_S8192x2_S8192x1_0_1) shapeCasts_S8192x1_S8192))))) (subf (Host.gather gather_S8192x3_S8192x1_S8192x3_1_0_n_n_0_1_13 (m' ((c.tc : Thread nD τ).loc main_arg0)) (broadcastInDim S8192x1 ![0] bcast_S8192_S8192x1_0 (select (cmpi .slt (shapeCast _ (extractStridedSlice S8192x1 ![0, 0] (m' ((c.tc : Thread nD τ).loc main_arg1)) slices_S8192x2_S8192x1_0_0) shapeCasts_S8192x1_S8192) (broadcastInDim S8192 ![] bcast_S_S8192 (constantI S_ 32 0#32))) (addi (shapeCast _ (extractStridedSlice S8192x1 ![0, 0] (m' ((c.tc : Thread nD τ).loc main_arg1)) slices_S8192x2_S8192x1_0_0) shapeCasts_S8192x1_S8192) (broadcastInDim S8192 ![] bcast_S_S8192 (constantI S_ 32 8192#32))) (shapeCast _ (extractStridedSlice S8192x1 ![0, 0] (m' ((c.tc : Thread nD τ).loc main_arg1)) slices_S8192x2_S8192x1_0_0) shapeCasts_S8192x1_S8192)))) (Host.gather gather_S8192x3_S8192x1_S8192x3_1_0_n_n_0_1_13 (m' ((c.tc : Thread nD τ).loc main_arg0)) (broadcastInDim S8192x1 ![0] bcast_S8192_S8192x1_0 (select (cmpi .slt (shapeCast _ (extractStridedSlice S8192x1 ![0, 1] (m' ((c.tc : Thread nD τ).loc main_arg1)) slices_S8192x2_S8192x1_0_1) shapeCasts_S8192x1_S8192) (broadcastInDim S8192 ![] bcast_S_S8192 (constantI S_ 32 0#32))) (addi (shapeCast _ (extractStridedSlice S8192x1 ![0, 1] (m' ((c.tc : Thread nD τ).loc main_arg1)) slices_S8192x2_S8192x1_0_1) shapeCasts_S8192x1_S8192) (broadcastInDim S8192 ![] bcast_S_S8192 (constantI S_ 32 8192#32))) (shapeCast _ (extractStridedSlice S8192x1 ![0, 1] (m' ((c.tc : Thread nD τ).loc main_arg1)) slices_S8192x2_S8192x1_0_1) shapeCasts_S8192x1_S8192)))))) (constant S_ .f32 0x00000000#32) reducesTo_S8192x3_S8192_d1 h_S_)) (m' ((c.tc : Thread nD τ).loc main_arg3))) (subf (Host.sqrt (Host.reduceAdd (mulf (subf (Host.gather gather_S8192x3_S8192x1_S8192x3_1_0_n_n_0_1_13 (m' ((c.tc : Thread nD τ).loc main_arg0)) (broadcastInDim S8192x1 ![0] bcast_S8192_S8192x1_0 (select (cmpi .slt (shapeCast _ (extractStridedSlice S8192x1 ![0, 0] (m' ((c.tc : Thread nD τ).loc main_arg1)) slices_S8192x2_S8192x1_0_0) shapeCasts_S8192x1_S8192) (broadcastInDim S8192 ![] bcast_S_S8192 (constantI S_ 32 0#32))) (addi (shapeCast _ (extractStridedSlice S8192x1 ![0, 0] (m' ((c.tc : Thread nD τ).loc main_arg1)) slices_S8192x2_S8192x1_0_0) shapeCasts_S8192x1_S8192) (broadcastInDim S8192 ![] bcast_S_S8192 (constantI S_ 32 8192#32))) (shapeCast _ (extractStridedSlice S8192x1 ![0, 0] (m' ((c.tc : Thread nD τ).loc main_arg1)) slices_S8192x2_S8192x1_0_0) shapeCasts_S8192x1_S8192)))) (Host.gather gather_S8192x3_S8192x1_S8192x3_1_0_n_n_0_1_13 (m' ((c.tc : Thread nD τ).loc main_arg0)) (broadcastInDim S8192x1 ![0] bcast_S8192_S8192x1_0 (select (cmpi .slt (shapeCast _ (extractStridedSlice S8192x1 ![0, 1] (m' ((c.tc : Thread nD τ).loc main_arg1)) slices_S8192x2_S8192x1_0_1) shapeCasts_S8192x1_S8192) (broadcastInDim S8192 ![] bcast_S_S8192 (constantI S_ 32 0#32))) (addi (shapeCast _ (extractStridedSlice S8192x1 ![0, 1] (m' ((c.tc : Thread nD τ).loc main_arg1)) slices_S8192x2_S8192x1_0_1) shapeCasts_S8192x1_S8192) (broadcastInDim S8192 ![] bcast_S_S8192 (constantI S_ 32 8192#32))) (shapeCast _ (extractStridedSlice S8192x1 ![0, 1] (m' ((c.tc : Thread nD τ).loc main_arg1)) slices_S8192x2_S8192x1_0_1) shapeCasts_S8192x1_S8192))))) (subf (Host.gather gather_S8192x3_S8192x1_S8192x3_1_0_n_n_0_1_13 (m' ((c.tc : Thread nD τ).loc main_arg0)) (broadcastInDim S8192x1 ![0] bcast_S8192_S8192x1_0 (select (cmpi .slt (shapeCast _ (extractStridedSlice S8192x1 ![0, 0] (m' ((c.tc : Thread nD τ).loc main_arg1)) slices_S8192x2_S8192x1_0_0) shapeCasts_S8192x1_S8192) (broadcastInDim S8192 ![] bcast_S_S8192 (constantI S_ 32 0#32))) (addi (shapeCast _ (extractStridedSlice S8192x1 ![0, 0] (m' ((c.tc : Thread nD τ).loc main_arg1)) slices_S8192x2_S8192x1_0_0) shapeCasts_S8192x1_S8192) (broadcastInDim S8192 ![] bcast_S_S8192 (constantI S_ 32 8192#32))) (shapeCast _ (extractStridedSlice S8192x1 ![0, 0] (m' ((c.tc : Thread nD τ).loc main_arg1)) slices_S8192x2_S8192x1_0_0) shapeCasts_S8192x1_S8192)))) (Host.gather gather_S8192x3_S8192x1_S8192x3_1_0_n_n_0_1_13 (m' ((c.tc : Thread nD τ).loc main_arg0)) (broadcastInDim S8192x1 ![0] bcast_S8192_S8192x1_0 (select (cmpi .slt (shapeCast _ (extractStridedSlice S8192x1 ![0, 1] (m' ((c.tc : Thread nD τ).loc main_arg1)) slices_S8192x2_S8192x1_0_1) shapeCasts_S8192x1_S8192) (broadcastInDim S8192 ![] bcast_S_S8192 (constantI S_ 32 0#32))) (addi (shapeCast _ (extractStridedSlice S8192x1 ![0, 1] (m' ((c.tc : Thread nD τ).loc main_arg1)) slices_S8192x2_S8192x1_0_1) shapeCasts_S8192x1_S8192) (broadcastInDim S8192 ![] bcast_S_S8192 (constantI S_ 32 8192#32))) (shapeCast _ (extractStridedSlice S8192x1 ![0, 1] (m' ((c.tc : Thread nD τ).loc main_arg1)) slices_S8192x2_S8192x1_0_1) shapeCasts_S8192x1_S8192)))))) (constant S_ .f32 0x00000000#32) reducesTo_S8192x3_S8192_d1 h_S_)) (m' ((c.tc : Thread nD τ).loc main_arg3))))) (constant S_ .f32 0x00000000#32) reducesTo_S8192_S_d0 h_S_)

/-- The bond term is the stage of main_v25 at the argument arrays. -/
theorem refBond_eq (m' : (ℓ : Loc Cert.ReferenceIdeal.nD Cert.ReferenceIdeal.τ Cert.ReferenceIdeal.sig) → Buf (Elt Ideal) ℓ)
    (c : Dev Cert.ReferenceIdeal.nD) :
    refBond m' c = Cert.ReferenceIdeal.Read.val_main_v25 (F := Ideal)
      (m' ((c.tc : Thread nD τ).loc main_arg0)) (m' ((c.tc : Thread nD τ).loc main_arg1))
      (m' ((c.tc : Thread nD τ).loc main_arg2)) (m' ((c.tc : Thread nD τ).loc main_arg3)) := by
  unfold refBond; rfl

/-- The reference's result: the bond term plus the sum over all pairs of the pair's contribution. -/
theorem ref_result (m' : (ℓ : Loc Cert.ReferenceIdeal.nD Cert.ReferenceIdeal.τ Cert.ReferenceIdeal.sig) → Buf (Elt Ideal) ℓ)
    (c : Dev Cert.ReferenceIdeal.nD) :
    Cert.ReferenceIdeal.Value.res_out0 (F := Ideal) m' c
      = addf (refBond m' c) (fun _ => Cert.LJ.total (m' ((c.tc : Thread _ _).loc Cert.ReferenceIdeal.main_arg0))
          (m' ((c.tc : Thread _ _).loc Cert.ReferenceIdeal.main_arg4))
          (m' ((c.tc : Thread _ _).loc Cert.ReferenceIdeal.main_arg5))) := by
  refine (Cert.ReferenceIdeal.Read.val_main_v65_eq (F := Ideal) m' c).trans ?_
  unfold Cert.ReferenceIdeal.Read.val_main_v65
  rw [← refBond_eq]
  exact congrArg (addf (refBond m' c)) (funext fun i => lj_total _ _ _ i)

end Cert.RefValue

end
-- ==== Proof.BondEq.lean ====
/-
  The bond term is one term in both programs.

  Both programs compute the bond term by the same 32 host operations of the same argument arrays: two gathers of the
  coordinate rows at the bonded atoms (the atom numbers wrapped into range), their difference, its squared length
  summed over the three coordinates, the square root, the harmonic energy kb·(|x_i − x_j| − b0)², summed over the
  bonds. Read back as composed terms over argument arrays that agree, the two are the same term: the shapes are the
  same literals and the dimension records have the same fields.
-/
import proofs.«179323_j33148557590854_1_alg».proof.Proof.KI.Data
import proofs.«179323_j33148557590854_1_alg».proof.Proof.RefValue
import Idealize.ShloMosaic.Lib.StableHlo.Run

set_option maxRecDepth 16384

noncomputable section

namespace Cert.BondEq

open Idealize.ShloMosaic Idealize.ShloMosaic.TcCoe Idealize.SL.Sem Idealize.ShloMosaic.StableHlo

/-- The kernel program's buffer of the bond term, after its host lines, holds the reference's bond term. -/
theorem bond_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3)) :
    Cert.KernelIdeal.Hand.V (F := Ideal) m c Cert.KernelIdeal.main_v25 = Cert.RefValue.refBond m' c := by
  unfold Cert.RefValue.refBond
  rw [h0, h1, h2, h3]
  show StableHlo.after (List.flatten [Cert.KernelIdeal.Gen.hostOps0]) (fun b => m (c, b))
    (Proc.devRef .tc Cert.KernelIdeal.main_v25) = _
  simp only [List.flatten_cons, List.flatten_nil, List.append_nil, Cert.KernelIdeal.Gen.hostOps0]
  after_results_simp
  rfl

end Cert.BondEq

end
-- ==== Proof.lean ====
/-
  The force field's energy: the certificate's five claims.

  Both programs compute a bond term by the same host lines and add to it the sum of the Lennard-Jones pair energies over
  the strict upper triangle of the 8192 × 8192 pair tables. The kernel walks the tables in 64 tiles of 1024 × 1024,
  recomputing each tile's distances from the two blocks of coordinates it needs and adding the tile's total into one
  resident accumulator; the reference forms the whole matrix and sums it once. On the extended reals addition is
  commutative and associative, so the sum of the 64 tile totals is the sum over all pairs; entry by entry the two
  programs apply the same operations to the same numbers (the sixth power is grouped differently, which commutativity of
  the product absorbs). Nothing here needs the inputs finite: no law used fails at an infinity.

  The frames of the two kernel programs are written against the pipeline's launch theorem (two of the five windows read
  the same array, each at half of its share); the reference's frame is its run with the result dropped; the
  idealization rewrote nothing, so `preserves` is trivial.
-/
import proofs.«179323_j33148557590854_1_alg».proof.Defs
import proofs.«179323_j33148557590854_1_alg».proof.Proof.Gen.Kernel
import proofs.«179323_j33148557590854_1_alg».proof.Proof.Gen.KernelIdeal
import proofs.«179323_j33148557590854_1_alg».proof.Proof.Gen.ReferenceIdeal
import proofs.«179323_j33148557590854_1_alg».proof.Proof.Gen.ReferenceIdeal.Read
import proofs.«179323_j33148557590854_1_alg».proof.Proof.Gen.Pre_finite_inputs
import proofs.«179323_j33148557590854_1_alg».proof.Proof.K.Final
import proofs.«179323_j33148557590854_1_alg».proof.Proof.K.Body
import proofs.«179323_j33148557590854_1_alg».proof.Proof.KI.Final
import proofs.«179323_j33148557590854_1_alg».proof.Proof.KI.Body
import proofs.«179323_j33148557590854_1_alg».proof.Proof.KI.Sum
import proofs.«179323_j33148557590854_1_alg».proof.Proof.RefValue
import proofs.«179323_j33148557590854_1_alg».proof.Proof.BondEq
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ =>
  Cert.Kernel.Hand.frame_run (F := Bits) m ρ (Cert.Kernel.Hand.body_obligation m)

theorem frame_ki : Cert.frame_KernelIdeal := fun m ρ _ =>
  Cert.KernelIdeal.Hand.frame_run (F := Ideal) m ρ (Cert.KernelIdeal.Hand.body_obligation m)

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the bond term plus the sum of all pair energies, of arguments that agree. -/
theorem algebraic : Cert.algebraic_KernelIdeal_ReferenceIdeal := by
  intro m ρ m' ρ' _ hagree
  refine ⟨_, Cert.KernelIdeal.Hand.value_run (F := Ideal) m ρ (Cert.KernelIdeal.Hand.body_obligation m), ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_out0 (F := Ideal) m' c = _
  rw [Cert.RefValue.ref_result, Cert.KernelIdeal.Hand.acc_total,
    Cert.BondEq.bond_eq m m' c (hagree c).1 (hagree c).2.1 (hagree c).2.2.1 (hagree c).2.2.2.1,
    Cert.KernelIdeal.Hand.V_main_arg0, Cert.KernelIdeal.Hand.V_main_arg4, Cert.KernelIdeal.Hand.V_main_arg5,
    (hagree c).1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
